-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel

variable [Facts]

def fn {F : FTy → Type} [FloatOps F] (main_arg0 : FVec F S4x4096x64 .f32) (main_arg1 : FVec F S4x4096x64 .f32) (main_arg2 : FVec F S4x4096x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  let main_v4 : FVec F S4x4096x64 .f32 := Host.absf main_arg1
  let main_cst_0 : FVec F S_ .f32 := constant S_ .f32 0x7F800000#32
  let main_v5 : FVec F S4x4096x64 .f32 := broadcastInDim S4x4096x64 ![] bcast_S_S4x4096x64 main_cst_0
  let main_v6 : IVec S4x4096x64 1 := cmpf .olt main_v4 main_v5
  let main_c_1 : IVec S_ 1 := constantI S_ 1 1#1
  let main_v7 : IVec S_ 1 := (fun x v => Host.reduce IntOp.andi x v reducesTo_S4x4096x64_S_d0_1_2 h_S_) main_v6 main_c_1
  let main_v8 : IVec S_ 1 := andi main_v3 main_v7
  let main_v9 : FVec F S4x4096x64 .f32 := Host.absf main_arg2
  let main_cst_2 : FVec F S_ .f32 := constant S_ .f32 0x7F800000#32
  let main_v10 : FVec F S4x4096x64 .f32 := broadcastInDim S4x4096x64 ![] bcast_S_S4x4096x64 main_cst_2
  let main_v11 : IVec S4x4096x64 1 := cmpf .olt main_v9 main_v10
  let main_c_3 : IVec S_ 1 := constantI S_ 1 1#1
  let main_v12 : IVec S_ 1 := (fun x v => Host.reduce IntOp.andi x v reducesTo_S4x4096x64_S_d0_1_2 h_S_) main_v11 main_c_3
  let main_v13 : IVec S_ 1 := andi main_v8 main_v12
  main_v13
-- ==== Kernel.lean ====
abbrev S4x4096x64 : Shape := ⟨3, ![4, 4096, 64]⟩
abbrev S4x512x64 : Shape := ⟨3, ![4, 512, 64]⟩
abbrev S4x512x1 : Shape := ⟨3, ![4, 512, 1]⟩
abbrev S4x512x512 : Shape := ⟨3, ![4, 512, 512]⟩
abbrev S4x512 : Shape := ⟨2, ![4, 512]⟩

abbrev nBuf : Space → Nat
  | .hbm => 4
  | .vmem => 9
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S4x4096x64, .f32⟩
  | .local _ .vmem, ⟨0, _⟩ => ⟨S4x512x64, .f32⟩
  | .local _ .vmem, ⟨1, _⟩ => ⟨S4x512x64, .f32⟩
  | .local _ .vmem, ⟨2, _⟩ => ⟨S4x4096x64, .f32⟩
  | .local _ .vmem, ⟨3, _⟩ => ⟨S4x4096x64, .f32⟩
  | .local _ .vmem, ⟨4, _⟩ => ⟨S4x512x64, .f32⟩
  | .local _ .vmem, ⟨5, _⟩ => ⟨S4x512x64, .f32⟩
  | .local _ .vmem, ⟨6, _⟩ => ⟨S4x512x1, .f32⟩
  | .local _ .vmem, ⟨7, _⟩ => ⟨S4x512x1, .f32⟩
  | .local _ .vmem, ⟨8, _⟩ => ⟨S4x512x64, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v16 : BitVec 32 := Scalar.addi c0_i32 c8_i32
  let c1_i32 : BitVec 32 := 1#32
  ⟨c0_i32, v16, c1_i32⟩
def k0_mult1 (k0_t1 : Fin k0_t1_loop.trips) : BitVec 32 :=
  let c0_i32_25 : BitVec 32 := 0#32
  let c0_i32 : BitVec 32 := 0#32
  let c1_i32 : BitVec 32 := 1#32
  let arg8 : BitVec 32 := Scf.iv c0_i32 c1_i32 k0_t1
  let c1_i32_24 : BitVec 32 := 1#32
  let v22 : BitVec 32 := Scalar.muli arg8 c1_i32_24
  let v23 : BitVec 32 := Scalar.addi c0_i32_25 v22
  let c512_i32 : BitVec 32 := 512#32
  let v24 : BitVec 32 := Scalar.muli v23 c512_i32
  v24
def k0_off1 (k0_t1 : Fin k0_t1_loop.trips) : Fin 3 → Nat :=
  let c0_26 : Index := 0#32
  let c0_i32_25 : BitVec 32 := 0#32
  let c0_i32 : BitVec 32 := 0#32
  let c1_i32 : BitVec 32 := 1#32
  let arg8 : BitVec 32 := Scf.iv c0_i32 c1_i32 k0_t1
  let c1_i32_24 : BitVec 32 := 1#32
  let v22 : BitVec 32 := Scalar.muli arg8 c1_i32_24
  let v23 : BitVec 32 := Scalar.addi c0_i32_25 v22
  let c512_i32 : BitVec 32 := 512#32
  let v24 : BitVec 32 := Scalar.muli v23 c512_i32
  let v25 : BitVec 32 := v24
  let v26 : Index := Scalar.indexCast v25
  let c0_27 : Index := 0#32
  ![0, v26.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4x512x64_S4x512x64_0_0_0 : ∀ a, (![0, 0, 0] : Fin 3 → Nat) a + S4x512x64.size a ≤ S4x512x64.size a
  h_S4x512x64 : 0 < S4x512x64.numel
  bitsLt_bf16_f32 : FTy.bits .bf16 < FTy.bits .f32
  inb_S4x512x1_S4x512x1_0_0_0 : ∀ a, (![0, 0, 0] : Fin 3 → Nat) a + S4x512x1.size a ≤ S4x512x1.size a
  h_S4x512x1 : 0 < S4x512x1.numel
  shapeCasts_S4x512x1_S4x512x1 : S4x512x1.ShapeCasts S4x512x1
  shapeCasts_S4x512x64_S4x512x64 : S4x512x64.ShapeCasts S4x512x64
  reduces_S4x512x512_S4x512 : S4x512x512.Reduces [2] S4x512
  shapeCasts_S4x512_S4x512x1 : S4x512.ShapeCasts S4x512x1
  broadcasts_S4x512x1_S4x512x512 : S4x512x1.Broadcasts S4x512x512
  broadcasts_S4x512x1_S4x512x64 : S4x512x1.Broadcasts S4x512x64
  dot_S4x512x64_S4x512x64_S4x512x512_2_2_1_1_0_0_wf : DotDims.WF S4x512x64 S4x512x64 S4x512x512 [2] [2] [1] [1] [0] [0]
  dot_S4x512x512_S4x512x64_S4x512x64_2_1_1_2_0_0_wf : DotDims.WF S4x512x512 S4x512x64 S4x512x64 [2] [1] [1] [2] [0] [0]
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S4x512x64.size a ≤ S4x4096x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x64.size a ≤ S4x4096x64.size a
  hwx0_0 : ∀ i : grid0.Coords, EltTy.bits .f32 = 32 ∨ (Rect.block (s := S4x4096x64) S4x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x4096x64.size a ≤ S4x4096x64.size a
  hwx0_1 : ∀ i : grid0.Coords, EltTy.bits .f32 = 32 ∨ (Rect.block (s := S4x4096x64) S4x4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x4096x64.size a ≤ S4x4096x64.size a
  hwx0_2 : ∀ i : grid0.Coords, EltTy.bits .f32 = 32 ∨ (Rect.block (s := S4x4096x64) S4x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512x64.size a ≤ S4x4096x64.size a
  hwx0_3 : ∀ i : grid0.Coords, EltTy.bits .f32 = 32 ∨ (Rect.block (s := S4x4096x64) S4x512x64.size (cc0_transform_3 i) (hinb0_3 i)).WholeWords (EltTy.packing .f32)

variable [Facts₀]

def dot_S4x512x64_S4x512x64_S4x512x512_2_2_1_1_0_0 : DotDims S4x512x64 S4x512x64 S4x512x512 where
  lhsContracting := [2]
  rhsContracting := [2]
  lhsNonContracting := [1]
  rhsNonContracting := [1]
  lhsBatch := [0]
  rhsBatch := [0]
  wf := dot_S4x512x64_S4x512x64_S4x512x512_2_2_1_1_0_0_wf
def dot_S4x512x512_S4x512x64_S4x512x64_2_1_1_2_0_0 : DotDims S4x512x512 S4x512x64 S4x512x64 where
  lhsContracting := [2]
  rhsContracting := [1]
  lhsNonContracting := [1]
  rhsNonContracting := [2]
  lhsBatch := [0]
  rhsBatch := [0]
  wf := dot_S4x512x512_S4x512x64_S4x512x64_2_1_1_2_0_0_wf

abbrev win0_0 : Pipeline.Window sig grid0 :=
  Pipeline.Window.ofSpec (Memref.whole main_arg0) S4x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .hbm, ⟨2, _⟩ => ⟨S4x4096x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4x4096x4096, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S4x4096, .f32⟩
  | .hbm, ⟨12, _⟩ => ⟨S_, .f32⟩
  | .hbm, ⟨13, _⟩ => ⟨S4x4096, .f32⟩
  | .hbm, ⟨14, _⟩ => ⟨S4x4096, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S4x4096x4096, .f32⟩
  | .hbm, ⟨23, _⟩ => ⟨S4x4096x4096, .f32⟩
  | .hbm, ⟨24, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.LibSoftmax.lean ====
/-
  Exp-weighted sums under a shift of the exponent: the laws behind softmax and its streamed
  (online, tile by tile) evaluation, over any finite index type.

  For scores s and values v on a finite index set,
  * softmax_shift:  ∑ⱼ (exp(s j - M) / ∑ₖ exp(s k - M)) · v j = (∑ⱼ exp(s j) · v j) / ∑ⱼ exp(s j) for every real M:
    subtracting a number from every score leaves the normalized weights' mean unchanged;
  * tile_shift, tile_shift_one:  ∑ᵣ exp(s r - μ') [· v r] = exp(-μ') · ∑ᵣ exp(s r) [· v r];
  * carry:  exp(μ - μ') · (exp(-μ) · P) + exp(-μ') · T = exp(-μ') · (P + T): a partial sum held at shift μ,
    rescaled when the shift moves to μ', plus a new tile at shift μ', is the longer partial sum at shift μ';
  * quot_shift:  (exp(-μ) · N) / (exp(-μ) · D) = N / D: the common factor cancels in the quotient.
  None of them needs the shift to be a maximum of the scores.
-/
import Mathlib

noncomputable section

open scoped BigOperators

namespace Attn

/-- Subtracting any number `M` from every score leaves the normalized weights' mean unchanged. -/
theorem softmax_shift {ι : Type*} [Fintype ι] (s v : ι → ℝ) (M : ℝ) :
    ∑ j, (Real.exp (s j - M) / ∑ j', Real.exp (s j' - M)) * v j
      = (∑ j, Real.exp (s j) * v j) / ∑ j, Real.exp (s j) := by
  have hM : Real.exp (-M) ≠ 0 := (Real.exp_pos _).ne'
  have e1 : ∀ j, Real.exp (s j - M) = Real.exp (-M) * Real.exp (s j) := fun j => by
    rw [← Real.exp_add]; congr 1; ring
  simp only [e1, ← Finset.mul_sum]
  rw [Finset.sum_div]
  refine Finset.sum_congr rfl fun j _ => ?_
  rw [mul_div_mul_left _ _ hM]; ring

/-- A tile's terms at shift `μ'` are `exp(-μ')` times its terms at shift 0. -/
theorem tile_shift {ι : Type*} [Fintype ι] (s v : ι → ℝ) (μ' : ℝ) :
    ∑ r, Real.exp (s r - μ') * v r = Real.exp (-μ') * ∑ r, Real.exp (s r) * v r := by
  rw [Finset.mul_sum]
  refine Finset.sum_congr rfl fun r _ => ?_
  rw [← mul_assoc, ← Real.exp_add]; congr 2; ring

/-- The same without values: a tile's weights at shift `μ'`. -/
theorem tile_shift_one {ι : Type*} [Fintype ι] (s : ι → ℝ) (μ' : ℝ) :
    ∑ r, Real.exp (s r - μ') = Real.exp (-μ') * ∑ r, Real.exp (s r) := by
  have := tile_shift s (fun _ => 1) μ'
  simpa using this

/-- Moving the shift from `μ` to `μ'`: the partial sum held at shift `μ`, rescaled by `exp(μ - μ')`, plus
    the new tile at shift `μ'`, is the longer partial sum held at shift `μ'`. -/
theorem carry (μ μ' P T : ℝ) :
    Real.exp (μ - μ') * (Real.exp (-μ) * P) + Real.exp (-μ') * T = Real.exp (-μ') * (P + T) := by
  rw [← mul_assoc, ← Real.exp_add, show μ - μ' + -μ = -μ' by ring]; ring

/-- The common factor `exp(-μ)` cancels in the quotient. -/
theorem quot_shift (μ N D : ℝ) : (Real.exp (-μ) * N) / (Real.exp (-μ) * D) = N / D :=
  mul_div_mul_left _ _ (Real.exp_pos _).ne'

end Attn

end
-- ==== Proof.Spec.lean ====
/-
  Scaled dot-product attention over the reals, by coordinates, and its evaluation tile by tile.

  For arrays Q, K, V of shape [4, 4096, 64], the score of query row q against key j is
  (∑ₑ Q[b,q,e]·K[b,j,e]) / 8, and the attention output is the exp-weighted mean of the rows of V,
      attn[b,q,d] = (∑ⱼ exp(score[b,q,j])·V[b,j,d]) / ∑ⱼ exp(score[b,q,j]).

  Two arrangements compute it (the laws of the exponential they rest on are proved over any finite
  index type in the module imported here).
  * The softmax form subtracts a number M from every score of the row first: since
    exp(s - M) = exp(s)·exp(-M), the common factor exp(-M) cancels between numerator and
    denominator (softmax_shift), whatever M is.
  * The streamed form visits the keys in 8 tiles of 512 and keeps, for the current shift μ, the
    partial sums exp(-μ)·∑_{tiles so far} …; when the shift moves from μ to μ' the partial sums are
    rescaled by exp(μ - μ') and the new tile enters at shift μ' (carry, tile_shift).  After the 8th
    tile the partial sums are exp(-μ)·(the whole sums), and exp(-μ) cancels in the quotient
    (quot_shift).  Nothing here needs μ to be a maximum: any real shift gives the same quotient.
-/
import proofs.«174683_j67396626809355_2_alg».proof.Proof.LibSoftmax

noncomputable section

open scoped BigOperators

namespace Attn

/-- A real array of shape [4, 4096, 64], by coordinates. -/
abbrev Arr := Fin 4 → Fin 4096 → Fin 64 → ℝ

/-- The score of query row `q` against key `j` in batch `b`: the dot product over the 64 features, over 8 = √64. -/
def score (Q K : Arr) (b : Fin 4) (q j : Fin 4096) : ℝ := (∑ e : Fin 64, Q b q e * K b j e) / 8

/-- Attention: the exp-weighted mean over the keys of column `d` of `V`. -/
def attn (Q K V : Arr) (b : Fin 4) (q : Fin 4096) (d : Fin 64) : ℝ :=
  (∑ j : Fin 4096, Real.exp (score Q K b q j) * V b j d) / ∑ j : Fin 4096, Real.exp (score Q K b q j)

/-- The score with the factor 1/8 applied to the query first. -/
theorem score_scaled_query (Q K : Arr) (b : Fin 4) (q j : Fin 4096) :
    ∑ e : Fin 64, (Q b q e * (1 / 8 : ℝ)) * K b j e = score Q K b q j := by
  unfold score
  rw [Finset.sum_div]
  exact Finset.sum_congr rfl fun e _ => by ring

/-- The score with the factor 1/√64 applied to the dot product. -/
theorem score_scaled_dot (Q K : Arr) (b : Fin 4) (q j : Fin 4096) :
    (∑ e : Fin 64, Q b q e * K b j e) * (1 / Real.sqrt 64) = score Q K b q j := by
  have h : Real.sqrt 64 = 8 := by
    rw [show (64 : ℝ) = 8 ^ 2 by norm_num]
    exact Real.sqrt_sq (by norm_num)
  unfold score
  rw [h]; ring

/-! ## The streamed form -/

/-- Key `r` of tile `i`: tiles are 512 consecutive keys. -/
def key (i : Fin 8) (r : Fin 512) : Fin 4096 := ⟨512 * i.val + r.val, by have := i.isLt; have := r.isLt; omega⟩

theorem key_val (i : Fin 8) (r : Fin 512) : (key i r).val = 512 * i.val + r.val := rfl

/-- The sum of `g` over the keys of the first `n` tiles. -/
def psum (g : Fin 4096 → ℝ) (n : ℕ) : ℝ := ∑ i : Fin 8, if i.val < n then ∑ r : Fin 512, g (key i r) else 0

theorem psum_zero (g : Fin 4096 → ℝ) : psum g 0 = 0 := by
  unfold psum; simp

theorem psum_succ (g : Fin 4096 → ℝ) (n : ℕ) (h : n < 8) :
    psum g (n + 1) = psum g n + ∑ r : Fin 512, g (key ⟨n, h⟩ r) := by
  unfold psum
  have e : ∀ i : Fin 8, (if i.val < n + 1 then ∑ r : Fin 512, g (key i r) else 0)
      = (if i.val < n then ∑ r : Fin 512, g (key i r) else 0) + (if i = ⟨n, h⟩ then ∑ r : Fin 512, g (key i r) else 0) := by
    intro i
    by_cases h1 : i.val < n
    · have h2 : i ≠ ⟨n, h⟩ := fun hh => by rw [hh] at h1; exact Nat.lt_irrefl _ h1
      rw [if_pos (Nat.lt_succ_of_lt h1), if_pos h1, if_neg h2, add_zero]
    · by_cases h3 : i.val = n
      · have h4 : i = ⟨n, h⟩ := Fin.ext h3
        rw [if_pos (by omega), if_neg h1, if_pos h4, zero_add]
      · have h4 : i ≠ ⟨n, h⟩ := fun hh => h3 (by rw [hh])
        rw [if_neg (by omega), if_neg h1, if_neg h4, add_zero]
  rw [Finset.sum_congr rfl fun i _ => e i, Finset.sum_add_distrib, Finset.sum_ite_eq' Finset.univ (⟨n, h⟩ : Fin 8)]
  simp

/-- Every key is key `r` of tile `i` for exactly one pair: 4096 = 8 · 512. -/
def keyEquiv : Fin 8 × Fin 512 ≃ Fin 4096 where
  toFun p := key p.1 p.2
  invFun j := (⟨j.val / 512, by have := j.isLt; omega⟩, ⟨j.val % 512, Nat.mod_lt _ (by norm_num)⟩)
  left_inv p := by
    obtain ⟨i, r⟩ := p
    have hi := i.isLt; have hr := r.isLt
    ext
    · show (512 * i.val + r.val) / 512 = i.val; omega
    · show (512 * i.val + r.val) % 512 = r.val; omega
  right_inv j := by
    ext
    show 512 * (j.val / 512) + j.val % 512 = j.val
    omega

/-- After the 8th tile the partial sum is the whole sum. -/
theorem psum_all (g : Fin 4096 → ℝ) : psum g 8 = ∑ j : Fin 4096, g j := by
  unfold psum
  rw [← Equiv.sum_comp keyEquiv g, Fintype.sum_prod_type]
  exact Finset.sum_congr rfl fun i _ => by rw [if_pos i.isLt]; rfl

end Attn

end
-- ==== Proof.SpecG.lean ====
/-
  The attention output as one function of three arrays of extended reals of shape [4, 4096, 64]:
  each entry is read as a real number (its `toReal`; on finite entries that loses nothing) and the
  result at index (b, q, d) is the real attention `Attn.attn` there, as an extended real.
-/
import proofs.«174683_j67396626809355_2_alg».proof.Proof.Spec
import Idealize.ShloMosaic.Lib.ValueIdx

noncomputable section

namespace Attn

open Idealize.ShloMosaic Idealize.ShloMosaic.ValueIdx

/-- The shape [4, 4096, 64]. -/
abbrev S3 : Shape := ⟨3, ![4, 4096, 64]⟩

/-- An array of extended reals read entry by entry as reals. -/
def toArr (x : S3.Idx → EReal) : Arr := fun b q e => (x (ix3 b q e)).toReal

/-- Every entry is a real number (neither infinity). -/
def IsReal (x : S3.Idx → EReal) : Prop := ∀ i, x i = ((x i).toReal : EReal)

theorem IsReal.at {x : S3.Idx → EReal} (h : IsReal x) (b : Fin 4) (q : Fin 4096) (e : Fin 64) :
    x (ix3 b q e) = ((toArr x b q e : ℝ) : EReal) := h _

/-- Attention of three arrays of extended reals, index by index. -/
def G (x0 x1 x2 : S3.Idx → EReal) : S3.Idx → EReal :=
  fun i => ((attn (toArr x0) (toArr x1) (toArr x2) (i 0) (i 1) (i 2) : ℝ) : EReal)

theorem G_apply (x0 x1 x2 : S3.Idx → EReal) (b : Fin 4) (q : Fin 4096) (d : Fin 64) :
    G x0 x1 x2 (ix3 b q d) = ((attn (toArr x0) (toArr x1) (toArr x2) b q d : ℝ) : EReal) := rfl

end Attn

end
-- ==== Proof.KernelLoop.lean ====
/-
  What the kernel body leaves in its output block, as a pure function of the three input blocks.

  The body fills three scratch buffers (the running shift, denominator and numerator), then runs
  8 trips of the key loop; trip k reads tile k (512 consecutive keys and values) and the three
  scratch buffers, and overwrites each scratch buffer whole.  So the scratch contents after n
  trips are a plain recursion `scr` on n over the trip's three payload functions, and the output
  block is the last payload (numerator over denominator) of the contents after the 8th trip.
-/
import proofs.«174683_j67396626809355_2_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.ShloMosaic.ValueIdx
open scoped BigOperators

set_option maxRecDepth 16384

namespace Cert.KernelIdeal.KLoop

open Cert.KernelIdeal Cert.KernelIdeal.Gen

variable {F : FTy → Type} [FloatOps F]

theorem hz3 : (![0, 0, 0] : Fin 3 → Nat) = fun _ => 0 := funext fun a => by fin_cases a <;> rfl

/-- Tile `k` of an array of keys (or values): the 512 rows the trip's load rectangle names. -/
def tile (X : Vec F S4x4096x64 .f32) (k : Fin k0_t1_loop.trips) : Vec F S4x512x64 .f32 :=
  View.ld X (Rect.unit (s := S4x4096x64) (k0_off1 k) S4x512x64.size (k0_off1_inb k))

/-- The scratch contents (shift, denominator, numerator) after `n` trips. -/
def scr (x0 : Vec F S4x512x64 .f32) (x1 x2 : Vec F S4x4096x64 .f32) :
    ℕ → Vec F S4x512x1 .f32 × Vec F S4x512x1 .f32 × Vec F S4x512x64 .f32
  | 0 => (k0_pay2, k0_pay3, k0_pay4)
  | n + 1 =>
    if h : n < k0_t1_loop.trips then
      (k0_pay6 (k0_pay9 (k0_pay1 x0) (tile x1 ⟨n, h⟩) (scr x0 x1 x2 n).1),
       k0_pay12 (k0_pay1 x0) (tile x1 ⟨n, h⟩) (scr x0 x1 x2 n).1 (scr x0 x1 x2 n).2.1,
       k0_pay5 (k0_pay13 (k0_pay1 x0) (tile x1 ⟨n, h⟩) (tile x2 ⟨n, h⟩) (scr x0 x1 x2 n).1 (scr x0 x1 x2 n).2.2))
    else scr x0 x1 x2 n

theorem scr_succ (x0 : Vec F S4x512x64 .f32) (x1 x2 : Vec F S4x4096x64 .f32) (k : Fin k0_t1_loop.trips) :
    scr x0 x1 x2 (k.val + 1)
      = (k0_pay6 (k0_pay9 (k0_pay1 x0) (tile x1 k) (scr x0 x1 x2 k.val).1),
         k0_pay12 (k0_pay1 x0) (tile x1 k) (scr x0 x1 x2 k.val).1 (scr x0 x1 x2 k.val).2.1,
         k0_pay5 (k0_pay13 (k0_pay1 x0) (tile x1 k) (tile x2 k) (scr x0 x1 x2 k.val).1 (scr x0 x1 x2 k.val).2.2)) := by
  rw [scr]; exact dif_pos k.isLt

/-- A buffer written whole, last, reads back that write's payload. -/
theorem read_writes_whole {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w := by
  rw [View.read_writes_eq_canon v f _ (fun y => ⟨_, List.mem_cons_self .., View.mem_set_unit_zero h inb y⟩),
    View.canon_cons_unit_zero h inb]

section
variable (c : Dev nD) (i : grid0.Coords) (arg1 : Memref sig .tc .vmem S4x512x64 .f32) (harg1 : arg1.IsWhole) (arg2 : Memref sig .tc .vmem S4x4096x64 .f32) (harg2 : arg2.IsWhole) (arg3 : Memref sig .tc .vmem S4x4096x64 .f32) (harg3 : arg3.IsWhole) (arg4 : Memref sig .tc .vmem S4x512x64 .f32) (harg4 : arg4.IsWhole) (arg5 : Memref sig .tc .vmem S4x512x1 .f32) (harg5 : arg5.IsWhole) (arg6 : Memref sig .tc .vmem S4x512x1 .f32) (harg6 : arg6.IsWhole) (arg7 : Memref sig .tc .vmem S4x512x64 .f32) (harg7 : arg7.IsWhole)
variable (x0 : Vec F S4x512x64 .f32) (x1 x2 : Vec F S4x4096x64 .f32)

/-- One trip's writes: each scratch buffer gets one whole-buffer store, of the trip's payload over the tile and
    over what the trip finds in the scratch buffers. -/
theorem tripL_eq (k : Fin k0_t1_loop.trips)
    (f5 : BufTy.Contents (Elt F) arg5.view.ty) (f6 : BufTy.Contents (Elt F) arg6.view.ty) (f7 : BufTy.Contents (Elt F) arg7.view.ty) :
    tripL_k0_t1 (F := F) Variants.none c none i arg1 harg1 arg2 harg2 arg3 harg3 arg4 harg4 arg5 harg5 arg6 harg6 arg7 harg7 x0 (harg2.unread x1) (harg3.unread x2) k f5 f6 f7
      = ([⟨Rect.unit (s := S4x512x1) ![0, 0, 0] S4x512x1.size inb_S4x512x1_S4x512x1_0_0_0,
            k0_pay6 (k0_pay9 (k0_pay1 x0) (tile x1 k) (arg5.view.read (Elt F) f5))⟩],
         [⟨Rect.unit (s := S4x512x1) ![0, 0, 0] S4x512x1.size inb_S4x512x1_S4x512x1_0_0_0,
            k0_pay12 (k0_pay1 x0) (tile x1 k) (arg5.view.read (Elt F) f5) (arg6.view.read (Elt F) f6)⟩],
         [⟨Rect.unit (s := S4x512x64) ![0, 0, 0] S4x512x64.size inb_S4x512x64_S4x512x64_0_0_0,
            k0_pay5 (k0_pay13 (k0_pay1 x0) (tile x1 k) (tile x2 k) (arg5.view.read (Elt F) f5) (arg7.view.read (Elt F) f7))⟩]) := by
  unfold tripL_k0_t1
  unfold trip_k0_t1
  dsimp only
  sl_unfold_run_names
  simp only [View.readAt_eq_ld, harg2.read_unread, harg3.read_unread, View.ld_unit_zero (S := S4x512x1) hz3,
    View.ld_unit_zero (S := S4x512x64) hz3]
  rfl

theorem scr_zero : scr x0 x1 x2 0 = (k0_pay2, k0_pay3, k0_pay4) := by rw [scr]

/-- The scratch buffers as the loop finds them: each filled whole by the body's first stores. -/
abbrev G5 : BufTy.Contents (Elt F) arg5.view.ty :=
  arg5.view.writes (Elt F) arg5.view.junk [⟨Rect.unit (s := S4x512x1) ![0, 0, 0] S4x512x1.size inb_S4x512x1_S4x512x1_0_0_0, k0_pay2⟩]
abbrev G6 : BufTy.Contents (Elt F) arg6.view.ty :=
  arg6.view.writes (Elt F) arg6.view.junk [⟨Rect.unit (s := S4x512x1) ![0, 0, 0] S4x512x1.size inb_S4x512x1_S4x512x1_0_0_0, k0_pay3⟩]
abbrev G7 : BufTy.Contents (Elt F) arg7.view.ty :=
  arg7.view.writes (Elt F) arg7.view.junk [⟨Rect.unit (s := S4x512x64) ![0, 0, 0] S4x512x64.size inb_S4x512x64_S4x512x64_0_0_0, k0_pay4⟩]

/-- The pieces the trips before `n` wrote, per scratch buffer. -/
def pbn (n : ℕ) : List (View.Piece (Elt F) S4x512x1 .f32) × List (View.Piece (Elt F) S4x512x1 .f32) × List (View.Piece (Elt F) S4x512x64 .f32) :=
  pb_k0_t1 (F := F) Variants.none c none i arg1 harg1 arg2 harg2 arg3 harg3 arg4 harg4 arg5 harg5 arg6 harg6 arg7 harg7 x0 (harg2.unread x1) (harg3.unread x2) (G5 (F := F) arg5) (G6 (F := F) arg6) (G7 (F := F) arg7) n

/-- The contents of the three scratch buffers after `n` trips. -/
def W5 (n : ℕ) : BufTy.Contents (Elt F) arg5.view.ty := arg5.view.writes (Elt F) (G5 (F := F) arg5) (pbn c i arg1 harg1 arg2 harg2 arg3 harg3 arg4 harg4 arg5 harg5 arg6 harg6 arg7 harg7 x0 x1 x2 n).1
def W6 (n : ℕ) : BufTy.Contents (Elt F) arg6.view.ty := arg6.view.writes (Elt F) (G6 (F := F) arg6) (pbn c i arg1 harg1 arg2 harg2 arg3 harg3 arg4 harg4 arg5 harg5 arg6 harg6 arg7 harg7 x0 x1 x2 n).2.1
def W7 (n : ℕ) : BufTy.Contents (Elt F) arg7.view.ty := arg7.view.writes (Elt F) (G7 (F := F) arg7) (pbn c i arg1 harg1 arg2 harg2 arg3 harg3 arg4 harg4 arg5 harg5 arg6 harg6 arg7 harg7 x0 x1 x2 n).2.2

theorem pbn_zero : pbn c i arg1 harg1 arg2 harg2 arg3 harg3 arg4 harg4 arg5 harg5 arg6 harg6 arg7 harg7 x0 x1 x2 0 = ([], [], []) := by
  unfold pbn; rw [pb_k0_t1.eq_1]

theorem pbn_succ (k : Fin k0_t1_loop.trips) :
    pbn c i arg1 harg1 arg2 harg2 arg3 harg3 arg4 harg4 arg5 harg5 arg6 harg6 arg7 harg7 x0 x1 x2 (k.val + 1)
      = ([⟨Rect.unit (s := S4x512x1) ![0, 0, 0] S4x512x1.size inb_S4x512x1_S4x512x1_0_0_0, k0_pay6 (k0_pay9 (k0_pay1 x0) (tile x1 k) (arg5.view.read (Elt F) (W5 c i arg1 harg1 arg2 harg2 arg3 harg3 arg4 harg4 arg5 harg5 arg6 harg6 arg7 harg7 x0 x1 x2 k.val)))⟩] ++ (pbn c i arg1 harg1 arg2 harg2 arg3 harg3 arg4 harg4 arg5 harg5 arg6 harg6 arg7 harg7 x0 x1 x2 k.val).1,
         [⟨Rect.unit (s := S4x512x1) ![0, 0, 0] S4x512x1.size inb_S4x512x1_S4x512x1_0_0_0, k0_pay12 (k0_pay1 x0) (tile x1 k) (arg5.view.read (Elt F) (W5 c i arg1 harg1 arg2 harg2 arg3 harg3 arg4 harg4 arg5 harg5 arg6 harg6 arg7 harg7 x0 x1 x2 k.val)) (arg6.view.read (Elt F) (W6 c i arg1 harg1 arg2 harg2 arg3 harg3 arg4 harg4 arg5 harg5 arg6 harg6 arg7 harg7 x0 x1 x2 k.val))⟩] ++ (pbn c i arg1 harg1 arg2 harg2 arg3 harg3 arg4 harg4 arg5 harg5 arg6 harg6 arg7 harg7 x0 x1 x2 k.val).2.1,
         [⟨Rect.unit (s := S4x512x64) ![0, 0, 0] S4x512x64.size inb_S4x512x64_S4x512x64_0_0_0, k0_pay5 (k0_pay13 (k0_pay1 x0) (tile x1 k) (tile x2 k) (arg5.view.read (Elt F) (W5 c i arg1 harg1 arg2 harg2 arg3 harg3 arg4 harg4 arg5 harg5 arg6 harg6 arg7 harg7 x0 x1 x2 k.val)) (arg7.view.read (Elt F) (W7 c i arg1 harg1 arg2 harg2 arg3 harg3 arg4 harg4 arg5 harg5 arg6 harg6 arg7 harg7 x0 x1 x2 k.val)))⟩] ++ (pbn c i arg1 harg1 arg2 harg2 arg3 harg3 arg4 harg4 arg5 harg5 arg6 harg6 arg7 harg7 x0 x1 x2 k.val).2.2) := by
  unfold W5 W6 W7 pbn
  rw [pb_k0_t1_succ, tripL_eq]

/-- After `n` trips the three scratch buffers read `scr n`. -/
def Inv (n : ℕ) : Prop :=
    arg5.view.read (Elt F) (W5 c i arg1 harg1 arg2 harg2 arg3 harg3 arg4 harg4 arg5 harg5 arg6 harg6 arg7 harg7 x0 x1 x2 n) = (scr x0 x1 x2 n).1
    ∧ arg6.view.read (Elt F) (W6 c i arg1 harg1 arg2 harg2 arg3 harg3 arg4 harg4 arg5 harg5 arg6 harg6 arg7 harg7 x0 x1 x2 n) = (scr x0 x1 x2 n).2.1
    ∧ arg7.view.read (Elt F) (W7 c i arg1 harg1 arg2 harg2 arg3 harg3 arg4 harg4 arg5 harg5 arg6 harg6 arg7 harg7 x0 x1 x2 n) = (scr x0 x1 x2 n).2.2

theorem inv_zero : Inv c i arg1 harg1 arg2 harg2 arg3 harg3 arg4 harg4 arg5 harg5 arg6 harg6 arg7 harg7 x0 x1 x2 0 := by
  unfold Inv W5 W6 W7
  rw [pbn_zero, scr_zero]
  simp only [View.writes_nil]
  exact ⟨read_writes_whole arg5.view arg5.view.junk hz3 inb_S4x512x1_S4x512x1_0_0_0 k0_pay2 [],
    read_writes_whole arg6.view arg6.view.junk hz3 inb_S4x512x1_S4x512x1_0_0_0 k0_pay3 [],
    read_writes_whole arg7.view arg7.view.junk hz3 inb_S4x512x64_S4x512x64_0_0_0 k0_pay4 []⟩

/-- One trip: three whole-buffer stores over what the trips before left. -/
theorem inv_succ (k : Fin k0_t1_loop.trips) (ih : Inv c i arg1 harg1 arg2 harg2 arg3 harg3 arg4 harg4 arg5 harg5 arg6 harg6 arg7 harg7 x0 x1 x2 k.val) : Inv c i arg1 harg1 arg2 harg2 arg3 harg3 arg4 harg4 arg5 harg5 arg6 harg6 arg7 harg7 x0 x1 x2 (k.val + 1) := by
  obtain ⟨ih5, ih6, ih7⟩ := ih
  have e5 : W5 c i arg1 harg1 arg2 harg2 arg3 harg3 arg4 harg4 arg5 harg5 arg6 harg6 arg7 harg7 x0 x1 x2 (k.val + 1) = arg5.view.writes (Elt F) (W5 c i arg1 harg1 arg2 harg2 arg3 harg3 arg4 harg4 arg5 harg5 arg6 harg6 arg7 harg7 x0 x1 x2 k.val)
      [⟨Rect.unit (s := S4x512x1) ![0, 0, 0] S4x512x1.size inb_S4x512x1_S4x512x1_0_0_0, k0_pay6 (k0_pay9 (k0_pay1 x0) (tile x1 k) (arg5.view.read (Elt F) (W5 c i arg1 harg1 arg2 harg2 arg3 harg3 arg4 harg4 arg5 harg5 arg6 harg6 arg7 harg7 x0 x1 x2 k.val)))⟩] := by
    rw [W5, pbn_succ, W5]; exact View.writes_append _ _ _ _
  have e6 : W6 c i arg1 harg1 arg2 harg2 arg3 harg3 arg4 harg4 arg5 harg5 arg6 harg6 arg7 harg7 x0 x1 x2 (k.val + 1) = arg6.view.writes (Elt F) (W6 c i arg1 harg1 arg2 harg2 arg3 harg3 arg4 harg4 arg5 harg5 arg6 harg6 arg7 harg7 x0 x1 x2 k.val)
      [⟨Rect.unit (s := S4x512x1) ![0, 0, 0] S4x512x1.size inb_S4x512x1_S4x512x1_0_0_0, k0_pay12 (k0_pay1 x0) (tile x1 k) (arg5.view.read (Elt F) (W5 c i arg1 harg1 arg2 harg2 arg3 harg3 arg4 harg4 arg5 harg5 arg6 harg6 arg7 harg7 x0 x1 x2 k.val)) (arg6.view.read (Elt F) (W6 c i arg1 harg1 arg2 harg2 arg3 harg3 arg4 harg4 arg5 harg5 arg6 harg6 arg7 harg7 x0 x1 x2 k.val))⟩] := by
    rw [W6, pbn_succ, W6]; exact View.writes_append _ _ _ _
  have e7 : W7 c i arg1 harg1 arg2 harg2 arg3 harg3 arg4 harg4 arg5 harg5 arg6 harg6 arg7 harg7 x0 x1 x2 (k.val + 1) = arg7.view.writes (Elt F) (W7 c i arg1 harg1 arg2 harg2 arg3 harg3 arg4 harg4 arg5 harg5 arg6 harg6 arg7 harg7 x0 x1 x2 k.val)
      [⟨Rect.unit (s := S4x512x64) ![0, 0, 0] S4x512x64.size inb_S4x512x64_S4x512x64_0_0_0, k0_pay5 (k0_pay13 (k0_pay1 x0) (tile x1 k) (tile x2 k) (arg5.view.read (Elt F) (W5 c i arg1 harg1 arg2 harg2 arg3 harg3 arg4 harg4 arg5 harg5 arg6 harg6 arg7 harg7 x0 x1 x2 k.val)) (arg7.view.read (Elt F) (W7 c i arg1 harg1 arg2 harg2 arg3 harg3 arg4 harg4 arg5 harg5 arg6 harg6 arg7 harg7 x0 x1 x2 k.val)))⟩] := by
    rw [W7, pbn_succ, W7]; exact View.writes_append _ _ _ _
  unfold Inv
  rw [e5, e6, e7, scr_succ, ih5, ih6, ih7]
  exact ⟨read_writes_whole arg5.view _ hz3 inb_S4x512x1_S4x512x1_0_0_0 _ [],
    read_writes_whole arg6.view _ hz3 inb_S4x512x1_S4x512x1_0_0_0 _ [],
    read_writes_whole arg7.view _ hz3 inb_S4x512x64_S4x512x64_0_0_0 _ []⟩

theorem inv_all (n : ℕ) (hn : n ≤ k0_t1_loop.trips) : Inv c i arg1 harg1 arg2 harg2 arg3 harg3 arg4 harg4 arg5 harg5 arg6 harg6 arg7 harg7 x0 x1 x2 n := by
  induction n with
  | zero => exact inv_zero c i arg1 harg1 arg2 harg2 arg3 harg3 arg4 harg4 arg5 harg5 arg6 harg6 arg7 harg7 x0 x1 x2
  | succ n ih => exact inv_succ c i arg1 harg1 arg2 harg2 arg3 harg3 arg4 harg4 arg5 harg5 arg6 harg6 arg7 harg7 x0 x1 x2 ⟨n, hn⟩ (ih (Nat.le_of_lt hn))

/-- THE BODY'S OUTPUT BLOCK: numerator over denominator of the scratch contents after the last trip. -/
theorem out_eq :
    out0_A_3 c i arg1 harg1 arg2 harg2 arg3 harg3 arg4 harg4 arg5 harg5 arg6 harg6 arg7 harg7 x0 x1 x2
      = k0_pay7 (scr x0 x1 x2 k0_t1_loop.trips).2.2 (scr x0 x1 x2 k0_t1_loop.trips).2.1 := by
  obtain ⟨-, h6, h7⟩ := inv_all c i arg1 harg1 arg2 harg2 arg3 harg3 arg4 harg4 arg5 harg5 arg6 harg6 arg7 harg7 x0 x1 x2 k0_t1_loop.trips le_rfl
  unfold W6 pbn at h6
  unfold W7 pbn at h7
  unfold out0_A_3
  rw [View.read_writes_eq_canon _ _ _ (cover0_A_3 c i arg1 harg1 arg2 harg2 arg3 harg3 arg4 harg4 arg5 harg5 arg6 harg6 arg7 harg7 x0 x1 x2)]
  unfold kernelRun0_A
  dsimp only
  sl_unfold_run_names
  rw [View.canon_unit_zero hz3]
  have e0 : View.readAt (Elt F) arg1.view (Rect.unit (s := S4x512x64) ![0, 0, 0] S4x512x64.size inb_S4x512x64_S4x512x64_0_0_0).toLoadRect (harg1.unread x0) = x0 := by
    rw [View.readAt_eq_ld, harg1.read_unread, View.ld_unit_zero hz3]
  rw [e0, View.writes_append, View.writes_append]
  simp only [View.readAt_eq_ld, View.ld_unit_zero (S := S4x512x1) hz3, View.ld_unit_zero (S := S4x512x64) hz3]
  exact congrArg₂ k0_pay7 h7 h6

end

end Cert.KernelIdeal.KLoop

end
-- ==== Proof.Consts.lean ====
/-
  The float literals the two programs and the precondition spell, as the extended reals their bit
  patterns denote: 64, the two infinities, the kernel's scale 1/8 and its (finite) initial shift.
  The patterns for 0 and 1 are read by the library (Ideal.ofBits_zero_f32, Ideal.ofBits_one_f32).
-/
import Idealize.ShloMosaic.PureOps.Ideal
import Idealize.ShloMosaic.PureOps.Ideal.Laws
import Idealize.ShloMosaic.Lib.IdealHost

noncomputable section

namespace Cert.Consts

open Idealize.ShloMosaic

/-- The pattern of 64.0 denotes the real 64. -/
theorem lit_64 : Ideal.ofBits .f32 0x42800000#32 = ((64 : ℝ) : EReal) := by
  simp [Ideal.ofBits, Ideal.ieee, -EReal.coe_mul]; norm_num

/-- The pattern of +inf denotes the top element. -/
theorem lit_pos_inf : Ideal.ofBits .f32 0x7F800000#32 = ⊤ := by
  simp [Ideal.ofBits, Ideal.ieee]

/-- The pattern of -inf denotes the bottom element. -/
theorem lit_neg_inf : Ideal.ofBits .f32 0xFF800000#32 = ⊥ := by
  simp [Ideal.ofBits, Ideal.ieee]

/-- The pattern of 0.125 denotes the real 1/8. -/
theorem lit_eighth : Ideal.ofBits .f32 0x3E000000#32 = ((1 / 8 : ℝ) : EReal) := by
  simp [Ideal.ofBits, Ideal.ieee, -EReal.coe_mul]; norm_num

/-- The pattern 0xFF333332 (a large negative number) denotes a real. -/
theorem lit_neg_big : ∃ μ : ℝ, Ideal.ofBits .f32 0xFF333332#32 = (μ : EReal) := by
  have h1 : Ideal.ofBits .f32 0xFF333332#32 ≠ ⊤ := by simp [Ideal.ofBits, Ideal.ieee, -EReal.coe_mul]
  have h2 : Ideal.ofBits .f32 0xFF333332#32 ≠ ⊥ := by simp [Ideal.ofBits, Ideal.ieee, -EReal.coe_mul]
  exact ⟨_, (EReal.coe_toReal h1 h2).symm⟩

end Cert.Consts

end
-- ==== Proof.KernelOps.lean ====
/-
  The arithmetic of one trip of the kernel's key loop, read at one element, over the extended reals.

  The body's values are named payloads (the generated skeleton).  With v3 the scaled query block,
  kt / vt the trip's tile of 512 keys / values, and M, L, A what the three scratch buffers hold
  (running shift, running denominator, running numerator):
    pay1  x0            = x0 · (1/8)                                  the scaled query
    pay8  v3 kt         [b,r,j] = ∑ₑ v3[b,r,e] · kt[b,j,e]            the tile's scores
    pay9  v3 kt M       [b,r,0] = max (M[b,r,0]) (maxⱼ scores)        the new shift
    pay10 v3 kt M       [b,r,0] = exp (M - new shift)                 the rescaling factor
    pay11 v3 kt M       [b,r,j] = exp (score - new shift)             the tile's weights
    pay12 v3 kt M L     [b,r,0] = factor · L + ∑ⱼ weights             the new denominator
    pay13 v3 kt vt M A  [b,r,d] = factor · A[b,r,d] + ∑ⱼ weights[b,r,j] · vt[b,j,d]   the new numerator
    pay7  A L           [b,r,d] = A[b,r,d] / L[b,r,0]                 the output block
  A change of float format is the identity on extended reals, a matrix product into the zero
  accumulator is the plain sum of products, and a lane sum from zero is the plain sum.
-/
import proofs.«174683_j67396626809355_2_alg».proof.Proof.Gen.KernelIdeal.Skeleton
import proofs.«174683_j67396626809355_2_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx
open scoped BigOperators

namespace Cert.KernelIdeal.KOps

open Cert.KernelIdeal Cert.KernelIdeal.Gen

/-- The scale literal is exactly 1/8. -/
theorem scale_lit : Ideal.ofBits .f32 0x3E000000#32 = ((1 / 8 : ℝ) : EReal) := Cert.Consts.lit_eighth

/-- The initial shift is a finite number. -/
theorem neg_lit : ∃ μ : ℝ, Ideal.ofBits .f32 0xFF333332#32 = (μ : EReal) := Cert.Consts.lit_neg_big

/-- An exponential at an index is the exponential of the element. -/
theorem exp_apply {s : Shape} {φ : FTy} (a : FVec Ideal s φ) (i : s.Idx) : exp a i = Ideal.exp (a i) := rfl

/-! ### A column broadcast along the last axis, and a row vector given a trailing unit axis -/

/-- A `[4, 512, 1]` array broadcast along its unit axis reads, at `(b, r, c)`, the operand at `(b, r, 0)`. -/
theorem broadcastTo_col_apply {α : Type} {n : ℕ} (y : S4x512x1.Idx → α)
    (h : S4x512x1.Broadcasts ⟨3, ![4, 512, n]⟩) (b : Fin 4) (r : Fin 512) (c : Fin n) :
    broadcastTo ⟨3, ![4, 512, n]⟩ y h (ix3 b r c) = y (ix3 b r (0 : Fin 1)) := by
  refine broadcastTo_apply y h (ix3 b r c) (ix3 b r (0 : Fin 1)) fun ax => ?_
  match ax with
  | ⟨0, _⟩ => show b.val = if (4 : Nat) = 1 then 0 else b.val; rw [if_neg (by decide)]
  | ⟨1, _⟩ => show r.val = if (512 : Nat) = 1 then 0 else r.val; rw [if_neg (by decide)]
  | ⟨2, _⟩ => show 0 = if (1 : Nat) = 1 then 0 else c.val; rw [if_pos rfl]

/-- A `[4, 512]` array cast to `[4, 512, 1]` reads, at `(b, r, 0)`, the operand at `(b, r)`. -/
theorem shapeCast_row_apply {α : Type} (y : S4x512.Idx → α) (h : S4x512.ShapeCasts S4x512x1)
    (b : Fin 4) (r : Fin 512) (u : Fin 1) :
    shapeCast S4x512x1 y h (ix3 b r u) = y (ix2 b r) :=
  shapeCast_apply y h _ _ (by
    have hu : u.val = 0 := by omega
    rw [Shape.rowMajor_val_three, Shape.rowMajor_val_two]
    show b.val * 512 + r.val = (b.val * 512 + r.val) * 1 + u.val
    rw [hu, Nat.mul_one, Nat.add_zero])

variable (x0 kt vt A : Vec Ideal S4x512x64 .f32) (v3 : FVec Ideal S4x512x64 .bf16) (M L : Vec Ideal S4x512x1 .f32)
variable (b : Fin 4) (r j : Fin 512) (d e : Fin 64)

/-! ### The two contractions' operand indices, coordinate by coordinate -/

theorem lhs8_0 (i : S4x512x512.Idx) (q : dot_S4x512x64_S4x512x64_S4x512x512_2_2_1_1_0_0.contr.Idx) :
    (dot_S4x512x64_S4x512x64_S4x512x512_2_2_1_1_0_0.lhsIdx i q 0).val = (i 0).val := by
  unfold DotDims.lhsIdx
  rw [dif_pos (show (0 : Fin S4x512x64.rank) ∈ dot_S4x512x64_S4x512x64_S4x512x512_2_2_1_1_0_0.lhsBatch by decide)]
  rfl
theorem lhs8_1 (i : S4x512x512.Idx) (q : dot_S4x512x64_S4x512x64_S4x512x512_2_2_1_1_0_0.contr.Idx) :
    (dot_S4x512x64_S4x512x64_S4x512x512_2_2_1_1_0_0.lhsIdx i q 1).val = (i 1).val := by
  unfold DotDims.lhsIdx
  rw [dif_neg (show ¬(1 : Fin S4x512x64.rank) ∈ dot_S4x512x64_S4x512x64_S4x512x512_2_2_1_1_0_0.lhsBatch by decide),
    dif_pos (show (1 : Fin S4x512x64.rank) ∈ dot_S4x512x64_S4x512x64_S4x512x512_2_2_1_1_0_0.lhsNonContracting by decide)]
  rfl
theorem lhs8_2 (i : S4x512x512.Idx) (q : dot_S4x512x64_S4x512x64_S4x512x512_2_2_1_1_0_0.contr.Idx) :
    (dot_S4x512x64_S4x512x64_S4x512x512_2_2_1_1_0_0.lhsIdx i q 2).val = (q ⟨0, by decide⟩).val :=
  dot_S4x512x64_S4x512x64_S4x512x512_2_2_1_1_0_0.lhsIdx_val_of_single rfl i q
theorem rhs8_0 (i : S4x512x512.Idx) (q : dot_S4x512x64_S4x512x64_S4x512x512_2_2_1_1_0_0.contr.Idx) :
    (dot_S4x512x64_S4x512x64_S4x512x512_2_2_1_1_0_0.rhsIdx i q 0).val = (i 0).val := by
  unfold DotDims.rhsIdx
  rw [dif_pos (show (0 : Fin S4x512x64.rank) ∈ dot_S4x512x64_S4x512x64_S4x512x512_2_2_1_1_0_0.rhsBatch by decide)]
  rfl
theorem rhs8_1 (i : S4x512x512.Idx) (q : dot_S4x512x64_S4x512x64_S4x512x512_2_2_1_1_0_0.contr.Idx) :
    (dot_S4x512x64_S4x512x64_S4x512x512_2_2_1_1_0_0.rhsIdx i q 1).val = (i 2).val := by
  unfold DotDims.rhsIdx
  rw [dif_neg (show ¬(1 : Fin S4x512x64.rank) ∈ dot_S4x512x64_S4x512x64_S4x512x512_2_2_1_1_0_0.rhsBatch by decide),
    dif_pos (show (1 : Fin S4x512x64.rank) ∈ dot_S4x512x64_S4x512x64_S4x512x512_2_2_1_1_0_0.rhsNonContracting by decide)]
  rfl
theorem rhs8_2 (i : S4x512x512.Idx) (q : dot_S4x512x64_S4x512x64_S4x512x512_2_2_1_1_0_0.contr.Idx) :
    (dot_S4x512x64_S4x512x64_S4x512x512_2_2_1_1_0_0.rhsIdx i q 2).val = (q ⟨0, by decide⟩).val :=
  dot_S4x512x64_S4x512x64_S4x512x512_2_2_1_1_0_0.rhsIdx_val_of_single rfl i q

theorem lhs13_0 (i : S4x512x64.Idx) (q : dot_S4x512x512_S4x512x64_S4x512x64_2_1_1_2_0_0.contr.Idx) :
    (dot_S4x512x512_S4x512x64_S4x512x64_2_1_1_2_0_0.lhsIdx i q 0).val = (i 0).val := by
  unfold DotDims.lhsIdx
  rw [dif_pos (show (0 : Fin S4x512x512.rank) ∈ dot_S4x512x512_S4x512x64_S4x512x64_2_1_1_2_0_0.lhsBatch by decide)]
  rfl
theorem lhs13_1 (i : S4x512x64.Idx) (q : dot_S4x512x512_S4x512x64_S4x512x64_2_1_1_2_0_0.contr.Idx) :
    (dot_S4x512x512_S4x512x64_S4x512x64_2_1_1_2_0_0.lhsIdx i q 1).val = (i 1).val := by
  unfold DotDims.lhsIdx
  rw [dif_neg (show ¬(1 : Fin S4x512x512.rank) ∈ dot_S4x512x512_S4x512x64_S4x512x64_2_1_1_2_0_0.lhsBatch by decide),
    dif_pos (show (1 : Fin S4x512x512.rank) ∈ dot_S4x512x512_S4x512x64_S4x512x64_2_1_1_2_0_0.lhsNonContracting by decide)]
  rfl
theorem lhs13_2 (i : S4x512x64.Idx) (q : dot_S4x512x512_S4x512x64_S4x512x64_2_1_1_2_0_0.contr.Idx) :
    (dot_S4x512x512_S4x512x64_S4x512x64_2_1_1_2_0_0.lhsIdx i q 2).val = (q ⟨0, by decide⟩).val :=
  dot_S4x512x512_S4x512x64_S4x512x64_2_1_1_2_0_0.lhsIdx_val_of_single rfl i q
theorem rhs13_0 (i : S4x512x64.Idx) (q : dot_S4x512x512_S4x512x64_S4x512x64_2_1_1_2_0_0.contr.Idx) :
    (dot_S4x512x512_S4x512x64_S4x512x64_2_1_1_2_0_0.rhsIdx i q 0).val = (i 0).val := by
  unfold DotDims.rhsIdx
  rw [dif_pos (show (0 : Fin S4x512x64.rank) ∈ dot_S4x512x512_S4x512x64_S4x512x64_2_1_1_2_0_0.rhsBatch by decide)]
  rfl
theorem rhs13_1 (i : S4x512x64.Idx) (q : dot_S4x512x512_S4x512x64_S4x512x64_2_1_1_2_0_0.contr.Idx) :
    (dot_S4x512x512_S4x512x64_S4x512x64_2_1_1_2_0_0.rhsIdx i q 1).val = (q ⟨0, by decide⟩).val :=
  dot_S4x512x512_S4x512x64_S4x512x64_2_1_1_2_0_0.rhsIdx_val_of_single rfl i q
theorem rhs13_2 (i : S4x512x64.Idx) (q : dot_S4x512x512_S4x512x64_S4x512x64_2_1_1_2_0_0.contr.Idx) :
    (dot_S4x512x512_S4x512x64_S4x512x64_2_1_1_2_0_0.rhsIdx i q 2).val = (i 2).val := by
  unfold DotDims.rhsIdx
  rw [dif_neg (show ¬(2 : Fin S4x512x64.rank) ∈ dot_S4x512x512_S4x512x64_S4x512x64_2_1_1_2_0_0.rhsBatch by decide),
    dif_pos (show (2 : Fin S4x512x64.rank) ∈ dot_S4x512x512_S4x512x64_S4x512x64_2_1_1_2_0_0.rhsNonContracting by decide)]
  rfl

/-- The scaled query. -/
theorem pay1_apply : k0_pay1 (F := Ideal) x0 (ix3 b r e) = x0 (ix3 b r e) * ((1 / 8 : ℝ) : EReal) := by
  unfold k0_pay1
  rw [truncf_apply, mulf_apply, broadcast_apply]
  show x0 (ix3 b r e) * Ideal.ofBits .f32 0x3E000000#32 = _
  rw [scale_lit]

/-- The tile's scores: the product over the feature axis, batch by batch. -/
theorem pay8_apply : k0_pay8 (F := Ideal) v3 kt (ix3 b r j) = ∑ e : Fin 64, v3 (ix3 b r e) * kt (ix3 b j e) := by
  unfold k0_pay8
  simp only [matmul]
  rw [Ideal.matmul_constant_zero_apply, ← Equiv.sum_comp (contrEquiv1 dot_S4x512x64_S4x512x64_S4x512x512_2_2_1_1_0_0 64 rfl rfl).symm]
  refine Finset.sum_congr rfl fun k _ => ?_
  have hk := contrEquiv1_symm_val dot_S4x512x64_S4x512x64_S4x512x512_2_2_1_1_0_0 64 rfl rfl k
  have el : dot_S4x512x64_S4x512x64_S4x512x512_2_2_1_1_0_0.lhsIdx (ix3 b r j)
      ((contrEquiv1 dot_S4x512x64_S4x512x64_S4x512x512_2_2_1_1_0_0 64 rfl rfl).symm k) = ix3 b r k :=
    funext fun a => Fin.ext (by
      match a with
      | ⟨0, _⟩ => exact lhs8_0 _ _
      | ⟨1, _⟩ => exact lhs8_1 _ _
      | ⟨2, _⟩ => exact (lhs8_2 _ _).trans hk)
  have er : dot_S4x512x64_S4x512x64_S4x512x512_2_2_1_1_0_0.rhsIdx (ix3 b r j)
      ((contrEquiv1 dot_S4x512x64_S4x512x64_S4x512x512_2_2_1_1_0_0 64 rfl rfl).symm k) = ix3 b j k :=
    funext fun a => Fin.ext (by
      match a with
      | ⟨0, _⟩ => exact rhs8_0 _ _
      | ⟨1, _⟩ => exact rhs8_1 _ _
      | ⟨2, _⟩ => exact (rhs8_2 _ _).trans hk)
  rw [el, er]
  rfl

/-- The new shift of a row is a real number when the old shift and the row's scores are. -/
theorem pay9_real (hM : ∃ μ : ℝ, M (ix3 b r (0 : Fin 1)) = (μ : EReal))
    (hS : ∀ j : Fin 512, ∃ σ : ℝ, k0_pay8 (F := Ideal) v3 kt (ix3 b r j) = (σ : EReal)) :
    ∃ μ' : ℝ, k0_pay9 (F := Ideal) v3 kt M (ix3 b r (0 : Fin 1)) = (μ' : EReal) := by
  obtain ⟨μ, hμ⟩ := hM
  unfold k0_pay9
  rw [maximumf_apply, shapeCast_row_apply, hμ,
    Ideal.multiReduction_maximumf_single (k0_pay8 (F := Ideal) v3 kt) 0xFF800000#32 reduces_S4x512x512_S4x512
      (.inl rfl) rfl (ix2 b r)]
  -- the row's maximum, folded from the bottom element over real scores, is below the top element
  have hlt : Finset.fold max (FloatOps.ofBits (F := Ideal) .f32 0xFF800000#32)
      (k0_pay8 (F := Ideal) v3 kt ∘ reduces_S4x512x512_S4x512.lift (ix2 b r)) Finset.univ < ⊤ := by
    rw [Finset.fold_max_lt]
    refine ⟨?_, fun k _ => ?_⟩
    · show Ideal.ofBits .f32 0xFF800000#32 < ⊤
      rw [Cert.Consts.lit_neg_inf]
      exact bot_lt_top
    · have hl : reduces_S4x512x512_S4x512.lift (ix2 b r) k = @ix3 4 512 512 b r k :=
        funext fun a => Fin.ext (by
          match a with
          | ⟨0, _⟩ => rfl
          | ⟨1, _⟩ => rfl
          | ⟨2, _⟩ => rfl)
      obtain ⟨σ, hσ⟩ := hS k
      exact lt_of_eq_of_lt ((congrArg (k0_pay8 (F := Ideal) v3 kt) hl).trans hσ) (EReal.coe_lt_top σ)
  -- so the larger of it and the old shift is neither infinity
  generalize Finset.fold max (FloatOps.ofBits (F := Ideal) .f32 0xFF800000#32)
      (k0_pay8 (F := Ideal) v3 kt ∘ reduces_S4x512x512_S4x512.lift (ix2 b r)) Finset.univ = X at hlt ⊢
  have h1 : max (μ : EReal) X ≠ ⊤ := (max_lt (EReal.coe_lt_top μ) hlt).ne
  have h2 : max (μ : EReal) X ≠ ⊥ := (lt_of_lt_of_le (EReal.bot_lt_coe μ) (le_max_left _ _)).ne'
  exact ⟨_, (EReal.coe_toReal h1 h2).symm⟩

/-- The rescaling factor. -/
theorem pay10_apply : k0_pay10 (F := Ideal) v3 kt M (ix3 b r (0 : Fin 1))
    = Ideal.exp (M (ix3 b r (0 : Fin 1)) - k0_pay9 (F := Ideal) v3 kt M (ix3 b r (0 : Fin 1))) := by
  unfold k0_pay10
  rw [exp_apply, subf_apply]

/-- The tile's weights. -/
theorem pay11_apply : k0_pay11 (F := Ideal) v3 kt M (ix3 b r j)
    = Ideal.exp (k0_pay8 (F := Ideal) v3 kt (ix3 b r j) - k0_pay9 (F := Ideal) v3 kt M (ix3 b r (0 : Fin 1))) := by
  unfold k0_pay11
  rw [exp_apply, subf_apply, broadcastTo_col_apply]

/-- The new denominator. -/
theorem pay12_apply : k0_pay12 (F := Ideal) v3 kt M L (ix3 b r (0 : Fin 1))
    = k0_pay10 (F := Ideal) v3 kt M (ix3 b r (0 : Fin 1)) * L (ix3 b r (0 : Fin 1))
      + ∑ j : Fin 512, k0_pay11 (F := Ideal) v3 kt M (ix3 b r j) := by
  unfold k0_pay12
  rw [shapeCast_self, addf_apply, mulf_apply, shapeCast_row_apply]
  refine congrArg (fun t : EReal => k0_pay10 (F := Ideal) v3 kt M (ix3 b r (0 : Fin 1)) * L (ix3 b r (0 : Fin 1)) + t) ?_
  refine (Ideal.multiReduction_add_single (k0_pay11 (F := Ideal) v3 kt M) _ reduces_S4x512x512_S4x512
    (.inl rfl) rfl (ix2 b r)).trans (Finset.sum_congr rfl fun k _ => ?_)
  exact congrArg _ (funext fun a => Fin.ext (by
    match a with
    | ⟨0, _⟩ => rfl
    | ⟨1, _⟩ => rfl
    | ⟨2, _⟩ => rfl))

/-- The new numerator. -/
theorem pay13_apply : k0_pay13 (F := Ideal) v3 kt vt M A (ix3 b r d)
    = k0_pay10 (F := Ideal) v3 kt M (ix3 b r (0 : Fin 1)) * A (ix3 b r d)
      + ∑ j : Fin 512, k0_pay11 (F := Ideal) v3 kt M (ix3 b r j) * vt (ix3 b j d) := by
  unfold k0_pay13
  simp only [matmul]
  rw [addf_apply, mulf_apply, Ideal.matmul_constant_zero_apply,
    ← Equiv.sum_comp (contrEquiv1 dot_S4x512x512_S4x512x64_S4x512x64_2_1_1_2_0_0 512 rfl rfl).symm,
    broadcastTo_col_apply]
  refine congrArg (_ + ·) (Finset.sum_congr rfl fun k _ => ?_)
  have hk := contrEquiv1_symm_val dot_S4x512x512_S4x512x64_S4x512x64_2_1_1_2_0_0 512 rfl rfl k
  have el : dot_S4x512x512_S4x512x64_S4x512x64_2_1_1_2_0_0.lhsIdx (ix3 b r d)
      ((contrEquiv1 dot_S4x512x512_S4x512x64_S4x512x64_2_1_1_2_0_0 512 rfl rfl).symm k) = ix3 b r k :=
    funext fun a => Fin.ext (by
      match a with
      | ⟨0, _⟩ => exact lhs13_0 _ _
      | ⟨1, _⟩ => exact lhs13_1 _ _
      | ⟨2, _⟩ => exact (lhs13_2 _ _).trans hk)
  have er : dot_S4x512x512_S4x512x64_S4x512x64_2_1_1_2_0_0.rhsIdx (ix3 b r d)
      ((contrEquiv1 dot_S4x512x512_S4x512x64_S4x512x64_2_1_1_2_0_0 512 rfl rfl).symm k) = ix3 b k d :=
    funext fun a => Fin.ext (by
      match a with
      | ⟨0, _⟩ => exact rhs13_0 _ _
      | ⟨1, _⟩ => exact (rhs13_1 _ _).trans hk
      | ⟨2, _⟩ => exact rhs13_2 _ _)
  rw [el, er]
  rfl

/-- The output block: numerator over denominator. -/
theorem pay7_apply : k0_pay7 (F := Ideal) A L (ix3 b r d) = Ideal.div (A (ix3 b r d)) (L (ix3 b r (0 : Fin 1))) := by
  unfold k0_pay7
  rw [divf_apply, broadcastTo_col_apply]

/-- A reshape to the same shape is the identity. -/
theorem pay5_eq : k0_pay5 (F := Ideal) A = A := shapeCast_self _ _

theorem pay6_eq : k0_pay6 (F := Ideal) M = M := shapeCast_self _ _

/-- The three initial fills. -/
theorem pay2_apply : k0_pay2 (F := Ideal) (ix3 b r (0 : Fin 1)) = Ideal.ofBits .f32 0xFF333332#32 := by
  unfold k0_pay2
  rw [shapeCast_self, broadcast_apply]
  rfl

theorem pay3_apply : k0_pay3 (F := Ideal) (ix3 b r (0 : Fin 1)) = 0 := by
  unfold k0_pay3
  rw [shapeCast_self, broadcast_apply]
  exact Ideal.ofBits_zero_f32

theorem pay4_apply : k0_pay4 (F := Ideal) (ix3 b r d) = 0 := by
  unfold k0_pay4
  rw [shapeCast_self, broadcast_apply]
  exact Ideal.ofBits_zero_f32

end Cert.KernelIdeal.KOps

end
-- ==== Proof.LibERealSum.lean ====
/-
  Finite sums of real numbers read as extended reals.

  The coercion ℝ → EReal is additive, so it commutes with finite sums: the coercion of a finite sum
  of reals is the sum of the coercions.  Consequently a finite sum of extended reals each of which
  is the coercion of a real is the coercion of the real sum, and a finite sum of products of two
  such families is the coercion of the real sum of products (the coercion is multiplicative too).
  No infinity can arise in such sums, so they may be computed in ℝ.
-/
import Mathlib.Data.EReal.Operations
import Mathlib.Algebra.BigOperators.Group.Finset.Basic

open scoped BigOperators

namespace ERealSum

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of extended reals that are termwise coercions of reals is the coercion of the real sum. -/
theorem sum_eq_coe {ι : Type*} (s : Finset ι) (g : ι → EReal) (f : ι → ℝ) (h : ∀ i ∈ s, g i = ((f i : ℝ) : EReal)) :
    ∑ i ∈ s, g i = ((∑ i ∈ s, f i : ℝ) : EReal) := by
  rw [coe_sum]; exact Finset.sum_congr rfl h

/-- A finite sum of products of two families of termwise coercions is the coercion of the real sum of products. -/
theorem sum_mul_eq_coe {ι : Type*} (s : Finset ι) (g h : ι → EReal) (f k : ι → ℝ)
    (hg : ∀ i ∈ s, g i = ((f i : ℝ) : EReal)) (hh : ∀ i ∈ s, h i = ((k i : ℝ) : EReal)) :
    ∑ i ∈ s, g i * h i = ((∑ i ∈ s, f i * k i : ℝ) : EReal) :=
  sum_eq_coe s _ _ fun i hi => by rw [hg i hi, hh i hi, ← EReal.coe_mul]

end ERealSum
-- ==== Proof.StepReal.lean ====
/-
  One trip of the key loop at one row, over the reals.

  At row (b, r) the scaled query, the tile's keys and values, and the three running quantities are
  real numbers: the running shift μ, the running denominator exp(-μ)·P and the running numerator
  exp(-μ)·PA d, where P and PA d are the unshifted partial sums over the tiles already visited.
  With s j = ∑ₑ (q e·(1/8))·kk j e the tile's scores, the trip produces a new real shift μ', the
  factor exp(μ - μ') and the weights exp(s j - μ'), and
      exp(μ - μ')·(exp(-μ)·P) + ∑ⱼ exp(s j - μ')            = exp(-μ')·(P + ∑ⱼ exp(s j)),
      exp(μ - μ')·(exp(-μ)·PA d) + ∑ⱼ exp(s j - μ')·vv j d  = exp(-μ')·(PA d + ∑ⱼ exp(s j)·vv j d):
  the invariant "running sums are exp(-shift) times the unshifted partial sums" is kept, whatever
  the new shift is.  The initial fills satisfy it with both partial sums 0, and the final quotient
  of exp(-μ)·N by exp(-μ)·D is N / D.
-/
import proofs.«174683_j67396626809355_2_alg».proof.Proof.Spec
import proofs.«174683_j67396626809355_2_alg».proof.Proof.KernelOps
import proofs.«174683_j67396626809355_2_alg».proof.Proof.LibERealSum

noncomputable section

open Idealize.ShloMosaic Idealize.ShloMosaic.TcCoe Idealize.ShloMosaic.ValueIdx
open scoped BigOperators

namespace Cert.KernelIdeal.StepReal

open Cert.KernelIdeal Cert.KernelIdeal.Gen Cert.KernelIdeal.KOps

/-! The coercion of finite sums of reals into the extended reals: `ERealSum`. -/
open ERealSum
export ERealSum (coe_sum sum_eq_coe sum_mul_eq_coe)

/-! ## One trip -/

section Trip

variable (v3 : FVec Ideal S4x512x64 .bf16) (kt vt A : Vec Ideal S4x512x64 .f32) (M L : Vec Ideal S4x512x1 .f32)
variable (b : Fin 4) (r : Fin 512) (qs : Fin 64 → ℝ) (kk vv : Fin 512 → Fin 64 → ℝ)

/-- The tile's scores are the real dot products. -/
theorem score_real (hq : ∀ e, v3 (ix3 b r e) = ((qs e : ℝ) : EReal)) (hk : ∀ j e, kt (ix3 b j e) = ((kk j e : ℝ) : EReal))
    (j : Fin 512) : k0_pay8 (F := Ideal) v3 kt (ix3 b r j) = ((∑ e : Fin 64, qs e * kk j e : ℝ) : EReal) := by
  rw [pay8_apply]
  exact sum_mul_eq_coe _ _ _ _ _ (fun e _ => hq e) (fun e _ => hk j e)

/-- The rescaling factor, given the old and the new shift as reals. -/
theorem factor_real (μ μ' : ℝ) (hM : M (ix3 b r (0 : Fin 1)) = ((μ : ℝ) : EReal))
    (hμ' : k0_pay9 (F := Ideal) v3 kt M (ix3 b r (0 : Fin 1)) = ((μ' : ℝ) : EReal)) :
    k0_pay10 (F := Ideal) v3 kt M (ix3 b r (0 : Fin 1)) = ((Real.exp (μ - μ') : ℝ) : EReal) := by
  rw [pay10_apply, hM, hμ', ← EReal.coe_sub, Ideal.exp_coe]

/-- A weight of the tile, given its score and the new shift as reals. -/
theorem weight_real (σ μ' : ℝ) (j : Fin 512) (hσ : k0_pay8 (F := Ideal) v3 kt (ix3 b r j) = ((σ : ℝ) : EReal))
    (hμ' : k0_pay9 (F := Ideal) v3 kt M (ix3 b r (0 : Fin 1)) = ((μ' : ℝ) : EReal)) :
    k0_pay11 (F := Ideal) v3 kt M (ix3 b r j) = ((Real.exp (σ - μ') : ℝ) : EReal) := by
  rw [pay11_apply, hσ, hμ', ← EReal.coe_sub, Ideal.exp_coe]

/-- One trip at one row, for any real scaled query row. -/
theorem trip_core (hq : ∀ e, v3 (ix3 b r e) = ((qs e : ℝ) : EReal)) (hk : ∀ j e, kt (ix3 b j e) = ((kk j e : ℝ) : EReal))
    (hv : ∀ j d, vt (ix3 b j d) = ((vv j d : ℝ) : EReal))
    (μ P : ℝ) (PA : Fin 64 → ℝ)
    (hM : M (ix3 b r (0 : Fin 1)) = ((μ : ℝ) : EReal))
    (hL : L (ix3 b r (0 : Fin 1)) = ((Real.exp (-μ) * P : ℝ) : EReal))
    (hA : ∀ d, A (ix3 b r d) = ((Real.exp (-μ) * PA d : ℝ) : EReal)) :
    ∃ μ' : ℝ, k0_pay9 (F := Ideal) v3 kt M (ix3 b r (0 : Fin 1)) = ((μ' : ℝ) : EReal)
      ∧ k0_pay12 (F := Ideal) v3 kt M L (ix3 b r (0 : Fin 1))
          = ((Real.exp (-μ') * (P + ∑ j : Fin 512, Real.exp (∑ e : Fin 64, qs e * kk j e)) : ℝ) : EReal)
      ∧ ∀ d, k0_pay13 (F := Ideal) v3 kt vt M A (ix3 b r d)
          = ((Real.exp (-μ') * (PA d + ∑ j : Fin 512, Real.exp (∑ e : Fin 64, qs e * kk j e) * vv j d) : ℝ) : EReal) := by
  have hs := score_real v3 kt b r qs kk hq hk
  obtain ⟨μ', hμ'⟩ := pay9_real kt v3 M b r ⟨μ, hM⟩ (fun j => ⟨_, hs j⟩)
  have hf := factor_real v3 kt M b r μ μ' hM hμ'
  have hw : ∀ j, k0_pay11 (F := Ideal) v3 kt M (ix3 b r j)
      = ((Real.exp ((∑ e : Fin 64, qs e * kk j e) - μ') : ℝ) : EReal) :=
    fun j => weight_real v3 kt M b r _ μ' j (hs j) hμ'
  refine ⟨μ', hμ', ?_, fun d => ?_⟩
  · rw [pay12_apply, hf, hL, ← EReal.coe_mul, sum_eq_coe _ _ _ (fun j _ => hw j), ← EReal.coe_add,
      Attn.tile_shift_one, Attn.carry]
  · rw [pay13_apply, hf, hA, ← EReal.coe_mul,
      sum_mul_eq_coe _ _ _ _ _ (fun j _ => hw j) (fun j _ => hv j d), ← EReal.coe_add,
      Attn.tile_shift (fun j => ∑ e : Fin 64, qs e * kk j e) (fun j => vv j d), Attn.carry]

end Trip

/-- One trip of the key loop at row (b, r): the new shift is real, and the new denominator and
    numerator are exp(-new shift) times the partial sums extended by this tile. -/
theorem trip_row (x0 kt vt A : Vec Ideal S4x512x64 .f32) (M L : Vec Ideal S4x512x1 .f32) (b : Fin 4) (r : Fin 512)
    (q : Fin 64 → ℝ) (kk vv : Fin 512 → Fin 64 → ℝ)
    (hq : ∀ e, x0 (ix3 b r e) = ((q e : ℝ) : EReal)) (hk : ∀ j e, kt (ix3 b j e) = ((kk j e : ℝ) : EReal))
    (hv : ∀ j d, vt (ix3 b j d) = ((vv j d : ℝ) : EReal))
    (μ P : ℝ) (PA : Fin 64 → ℝ)
    (hM : M (ix3 b r (0 : Fin 1)) = ((μ : ℝ) : EReal))
    (hL : L (ix3 b r (0 : Fin 1)) = ((Real.exp (-μ) * P : ℝ) : EReal))
    (hA : ∀ d, A (ix3 b r d) = ((Real.exp (-μ) * PA d : ℝ) : EReal)) :
    ∃ μ' : ℝ, k0_pay6 (F := Ideal) (k0_pay9 (F := Ideal) (k0_pay1 (F := Ideal) x0) kt M) (ix3 b r (0 : Fin 1)) = ((μ' : ℝ) : EReal)
      ∧ k0_pay12 (F := Ideal) (k0_pay1 (F := Ideal) x0) kt M L (ix3 b r (0 : Fin 1))
          = ((Real.exp (-μ') * (P + ∑ j : Fin 512, Real.exp (∑ e : Fin 64, (q e * (1 / 8 : ℝ)) * kk j e)) : ℝ) : EReal)
      ∧ ∀ d, k0_pay5 (F := Ideal) (k0_pay13 (F := Ideal) (k0_pay1 (F := Ideal) x0) kt vt M A) (ix3 b r d)
          = ((Real.exp (-μ') * (PA d + ∑ j : Fin 512, Real.exp (∑ e : Fin 64, (q e * (1 / 8 : ℝ)) * kk j e) * vv j d) : ℝ) : EReal) := by
  have hq' : ∀ e, k0_pay1 (F := Ideal) x0 (ix3 b r e) = ((q e * (1 / 8 : ℝ) : ℝ) : EReal) := fun e => by
    rw [pay1_apply, hq, ← EReal.coe_mul]
  obtain ⟨μ', h9, h12, h13⟩ := trip_core (k0_pay1 (F := Ideal) x0) kt vt A M L b r (fun e => q e * (1 / 8 : ℝ)) kk vv
    hq' hk hv μ P PA hM hL hA
  refine ⟨μ', ?_, h12, fun d => ?_⟩
  · rw [pay6_eq]; exact h9
  · rw [pay5_eq]; exact h13 d

/-- The initial fills: a real shift and both partial sums 0. -/
theorem init_row (b : Fin 4) (r : Fin 512) :
    ∃ μ : ℝ, k0_pay2 (F := Ideal) (ix3 b r (0 : Fin 1)) = ((μ : ℝ) : EReal)
      ∧ k0_pay3 (F := Ideal) (ix3 b r (0 : Fin 1)) = ((Real.exp (-μ) * 0 : ℝ) : EReal)
      ∧ ∀ d : Fin 64, k0_pay4 (F := Ideal) (ix3 b r d) = ((Real.exp (-μ) * 0 : ℝ) : EReal) := by
  obtain ⟨μ, hμ⟩ := neg_lit
  refine ⟨μ, ?_, ?_, fun d => ?_⟩
  · rw [pay2_apply, hμ]
  · rw [pay3_apply, mul_zero, EReal.coe_zero]
  · rw [pay4_apply, mul_zero, EReal.coe_zero]

/-- The output: the common factor exp(-μ) cancels between numerator and denominator. -/
theorem final_row (A : Vec Ideal S4x512x64 .f32) (L : Vec Ideal S4x512x1 .f32) (b : Fin 4) (r : Fin 512) (d : Fin 64)
    (μ N D : ℝ) (hD : 0 < D) (hA : A (ix3 b r d) = ((Real.exp (-μ) * N : ℝ) : EReal))
    (hL : L (ix3 b r (0 : Fin 1)) = ((Real.exp (-μ) * D : ℝ) : EReal)) :
    k0_pay7 (F := Ideal) A L (ix3 b r d) = ((N / D : ℝ) : EReal) := by
  have hne : Real.exp (-μ) * D ≠ 0 := mul_ne_zero (Real.exp_pos _).ne' hD.ne'
  rw [pay7_apply, hA, hL, Ideal.div_coe hne, ← EReal.coe_mul, ← Attn.quot_shift μ N D, mul_one_div]

end Cert.KernelIdeal.StepReal

end
-- ==== Proof.KernelInv.lean ====
/-
  The scratch contents after n trips of the key loop, at one row, over the reals.

  Tile k of the keys (values) is rows 512·k … 512·k + 511.  At row (b, r), with q the query row and
  g j = exp(∑ₑ (q e·(1/8))·K b j e) the unshifted weight of key j, the three scratch buffers after n
  trips hold a real shift μ, the denominator exp(-μ)·∑_{first n tiles} g j and the numerator
  exp(-μ)·∑_{first n tiles} g j·V b j d: true of the initial fills (both sums empty), and kept by
  each trip.  After the 8th trip the sums run over all 4096 keys and the quotient of numerator by
  denominator is (∑ⱼ g j·V b j d) / ∑ⱼ g j, the denominator being a sum of positive numbers.
-/
import proofs.«174683_j67396626809355_2_alg».proof.Proof.Spec
import proofs.«174683_j67396626809355_2_alg».proof.Proof.KernelLoop
import proofs.«174683_j67396626809355_2_alg».proof.Proof.StepReal

noncomputable section

open Idealize.ShloMosaic Idealize.ShloMosaic.TcCoe Idealize.ShloMosaic.ValueIdx
open scoped BigOperators

namespace Cert.KernelIdeal.KInv

open Cert.KernelIdeal Cert.KernelIdeal.Gen

/-- The key loop makes 8 trips. -/
theorem trips_eq : k0_t1_loop.trips = 8 := by decide +kernel

/-- Tile `k` starts at row 512·k: its row `j` is key `j` of tile `k`. -/
theorem tile_apply (X : Vec Ideal S4x4096x64 .f32) (k : Fin k0_t1_loop.trips) (hk : k.val < 8) (b : Fin 4) (j : Fin 512) (e : Fin 64) :
    KLoop.tile X k (ix3 b j e) = X (ix3 b (Attn.key ⟨k.val, hk⟩ j) e) := by
  unfold KLoop.tile
  show X ((Rect.unit (s := S4x4096x64) (k0_off1 k) S4x512x64.size (k0_off1_inb k)).emb (ix3 b j e)) = _
  congr 1
  funext a
  apply Fin.ext
  rw [Rect.emb_apply, Rect.off_unit, Rect.stride_unit,
    show k0_off1 k a = ![0, 512 * k.val, 0] a from congrFun (k0_off1_eq k) a]
  match a with
  | ⟨0, _⟩ => show 0 + 1 * b.val = b.val; omega
  | ⟨1, _⟩ => show 512 * k.val + 1 * j.val = 512 * k.val + j.val; omega
  | ⟨2, _⟩ => show 0 + 1 * e.val = e.val; omega

section Row

variable (x0 : Vec Ideal S4x512x64 .f32) (x1 x2 : Vec Ideal S4x4096x64 .f32) (b : Fin 4) (r : Fin 512)
variable (q : Fin 64 → ℝ) (K V : Attn.Arr)

/-- After `n` trips the shift is real and the two running sums are exp(-shift) times the unshifted
    partial sums over the first `n` tiles. -/
theorem scr_real
    (hq : ∀ e, x0 (ix3 b r e) = ((q e : ℝ) : EReal)) (hk : ∀ j e, x1 (ix3 b j e) = ((K b j e : ℝ) : EReal)) (hv : ∀ j d, x2 (ix3 b j d) = ((V b j d : ℝ) : EReal))
    (n : ℕ) (hn : n ≤ 8) :
    ∃ μ : ℝ, (KLoop.scr x0 x1 x2 n).1 (ix3 b r (0 : Fin 1)) = ((μ : ℝ) : EReal)
      ∧ (KLoop.scr x0 x1 x2 n).2.1 (ix3 b r (0 : Fin 1)) = ((Real.exp (-μ) * Attn.psum (fun j => Real.exp (∑ e : Fin 64, (q e * (1 / 8 : ℝ)) * K b j e)) n : ℝ) : EReal)
      ∧ ∀ d, (KLoop.scr x0 x1 x2 n).2.2 (ix3 b r d) = ((Real.exp (-μ) * Attn.psum (fun j => Real.exp (∑ e : Fin 64, (q e * (1 / 8 : ℝ)) * K b j e) * V b j d) n : ℝ) : EReal) := by
  induction n with
  | zero =>
    obtain ⟨μ, h2, h3, h4⟩ := StepReal.init_row b r
    refine ⟨μ, h2, ?_, fun d => ?_⟩
    · rw [Attn.psum_zero]; exact h3
    · rw [Attn.psum_zero]; exact h4 d
  | succ n ih =>
    have hn8 : n < 8 := hn
    have ht : n < k0_t1_loop.trips := by rw [trips_eq]; exact hn8
    obtain ⟨μ, hM, hL, hA⟩ := ih (Nat.le_of_succ_le hn)
    have hsucc : KLoop.scr x0 x1 x2 (n + 1) = _ := KLoop.scr_succ x0 x1 x2 ⟨n, ht⟩
    obtain ⟨μ', h9, h12, h13⟩ := StepReal.trip_row x0 (KLoop.tile x1 ⟨n, ht⟩) (KLoop.tile x2 ⟨n, ht⟩)
      (KLoop.scr x0 x1 x2 n).2.2 (KLoop.scr x0 x1 x2 n).1 (KLoop.scr x0 x1 x2 n).2.1 b r q
      (fun j e => K b (Attn.key ⟨n, hn8⟩ j) e) (fun j d => V b (Attn.key ⟨n, hn8⟩ j) d)
      hq (fun j e => by rw [tile_apply x1 ⟨n, ht⟩ hn8, hk]) (fun j d => by rw [tile_apply x2 ⟨n, ht⟩ hn8, hv])
      μ (Attn.psum (fun j => Real.exp (∑ e : Fin 64, (q e * (1 / 8 : ℝ)) * K b j e)) n)
      (fun d => Attn.psum (fun j => Real.exp (∑ e : Fin 64, (q e * (1 / 8 : ℝ)) * K b j e) * V b j d) n)
      hM hL hA
    refine ⟨μ', ?_, ?_, fun d => ?_⟩
    · rw [hsucc]; exact h9
    · rw [hsucc, Attn.psum_succ _ n hn8]; exact h12
    · rw [hsucc, Attn.psum_succ _ n hn8]; exact h13 d

/-- The output block at row (b, r): the exp-weighted mean of column `d` of the values. -/
theorem block_value
    (hq : ∀ e, x0 (ix3 b r e) = ((q e : ℝ) : EReal)) (hk : ∀ j e, x1 (ix3 b j e) = ((K b j e : ℝ) : EReal)) (hv : ∀ j d, x2 (ix3 b j d) = ((V b j d : ℝ) : EReal))
    (d : Fin 64) :
    k0_pay7 (F := Ideal) (KLoop.scr x0 x1 x2 k0_t1_loop.trips).2.2 (KLoop.scr x0 x1 x2 k0_t1_loop.trips).2.1 (ix3 b r d)
      = (((∑ j : Fin 4096, Real.exp (∑ e : Fin 64, (q e * (1 / 8 : ℝ)) * K b j e) * V b j d) / ∑ j : Fin 4096, Real.exp (∑ e : Fin 64, (q e * (1 / 8 : ℝ)) * K b j e) : ℝ) : EReal) := by
  rw [trips_eq]
  obtain ⟨μ, -, hL, hA⟩ := scr_real x0 x1 x2 b r q K V hq hk hv 8 le_rfl
  have hA' := hA d
  rw [Attn.psum_all] at hL hA'
  exact StepReal.final_row _ _ b r d μ _ _ (Finset.sum_pos (fun j _ => Real.exp_pos _) Finset.univ_nonempty) hA' hL

end Row

end Cert.KernelIdeal.KInv

end
-- ==== Proof.KernelBlock.lean ====
/-
  From the blocks to the array: the kernel's output array is the attention of its three arguments.

  The grid has 8 points.  At point t the query window holds rows 512·t … 512·t + 511 of the query
  array, the key and value windows hold the whole key and value arrays, and the output window's block
  is rows 512·t … 512·t + 511 of the output array.  The body's output block is, row by row, the
  attention of the block's query rows against all keys and values; so what point t writes back is
  block t of the attention of the three arrays.  Row ρ of the output lies in the block of point
  ρ / 512, so the 8 blocks cover the array, and the array ends holding the attention everywhere.
-/
import proofs.«174683_j67396626809355_2_alg».proof.Proof.Gen.KernelIdeal.Value
import proofs.«174683_j67396626809355_2_alg».proof.Proof.KernelLoop
import proofs.«174683_j67396626809355_2_alg».proof.Proof.KernelInv
import proofs.«174683_j67396626809355_2_alg».proof.Proof.SpecG
import Idealize.ShloMosaic.Lib.Pipeline.Value
import Idealize.ShloMosaic.Lib.ValueIdx

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.KernelIdeal.KBlock

open Cert.KernelIdeal Cert.KernelIdeal.Gen Attn

/-- The printed index maps over the 8 grid points: the query window and the output window move along the
    row axis with the point; the key and value windows stay at block 0. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = t.val ∧ win0_3.index t (2 : Fin 3) = 0 :=
  (by decide +kernel : ∀ t : Fin grid0.N, _)

theorem t_lt (t : Fin cfg0.N) : t.val < 8 := by
  have h : t.val < grid0.N := t.isLt
  rw [N_0] at h
  exact h

variable (m : (ℓ : Loc nD τ sig) → Buf (Elt Ideal) ℓ) (ρ : Dev nD → PrngReg)

/-- The query block at point t is rows 512·t … 512·t + 511 of the query array. -/
theorem qblock_apply (c : Dev nD) (t : Fin cfg0.N) (b : Fin 4) (r : Fin 512) (e : Fin 64) (h : 512 * t.val + r.val < 4096) :
    (iblk m c 0 t : Vec Ideal S4x512x64 .f32) (ix3 b r e) = V m c main_arg0 (ix3 b ⟨512 * t.val + r.val, h⟩ e) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 4 + 1 * b.val = b.val; rw [e0]; omega
  | ⟨1, _⟩ => show win0_0.index t (1 : Fin 3) * 512 + 1 * r.val = 512 * t.val + r.val; rw [e1]; omega
  | ⟨2, _⟩ => show win0_0.index t (2 : Fin 3) * 64 + 1 * e.val = e.val; rw [e2]; omega

/-- The key block at every point is the whole key array. -/
theorem kblock_eq (c : Dev nD) (t : Fin cfg0.N) : (iblk m c 1 t : Vec Ideal S4x4096x64 .f32) = V m c main_arg1 := by
  obtain ⟨-, -, -, e0, e1, e2, -⟩ := idx_facts t
  funext j
  unfold iblk
  rw [View.read_apply]
  show V m c main_arg1 _ = V m c main_arg1 j
  congr 1
  funext a
  apply Fin.ext
  match a with
  | ⟨0, _⟩ => show win0_1.index t (0 : Fin 3) * 4 + 1 * (j 0).val = (j 0).val; rw [e0]; omega
  | ⟨1, _⟩ => show win0_1.index t (1 : Fin 3) * 4096 + 1 * (j 1).val = (j 1).val; rw [e1]; omega
  | ⟨2, _⟩ => show win0_1.index t (2 : Fin 3) * 64 + 1 * (j 2).val = (j 2).val; rw [e2]; omega

/-- The value block at every point is the whole value array. -/
theorem vblock_eq (c : Dev nD) (t : Fin cfg0.N) : (iblk m c 2 t : Vec Ideal S4x4096x64 .f32) = V m c main_arg2 := by
  obtain ⟨-, -, -, -, -, -, e0, e1, e2, -⟩ := idx_facts t
  funext j
  unfold iblk
  rw [View.read_apply]
  show V m c main_arg2 _ = V m c main_arg2 j
  congr 1
  funext a
  apply Fin.ext
  match a with
  | ⟨0, _⟩ => show win0_2.index t (0 : Fin 3) * 4 + 1 * (j 0).val = (j 0).val; rw [e0]; omega
  | ⟨1, _⟩ => show win0_2.index t (1 : Fin 3) * 4096 + 1 * (j 1).val = (j 1).val; rw [e1]; omega
  | ⟨2, _⟩ => show win0_2.index t (2 : Fin 3) * 64 + 1 * (j 2).val = (j 2).val; rw [e2]; omega

/-- The body's output block for 512 query rows starting at row 512·T, over the whole key and value arrays, is
    the attention of the three arrays at those rows. -/
theorem block_G (x0 : Vec Ideal S4x512x64 .f32) (x1 x2 : Vec Ideal S4x4096x64 .f32) (a0 a1 a2 : S3.Idx → EReal)
    (T : ℕ) (hT : T < 8) (h0 : IsReal a0) (h1 : IsReal a1) (h2 : IsReal a2)
    (hx0 : ∀ (b : Fin 4) (r : Fin 512) (e : Fin 64), x0 (ix3 b r e) = a0 (ix3 b ⟨512 * T + r.val, by omega⟩ e))
    (hx1 : x1 = a1) (hx2 : x2 = a2) (y : S4x512x64.Idx) (i : S4x4096x64.Idx)
    (hi : i = ix3 (y 0) ⟨512 * T + (y 1).val, by have h : (y 1).val < 512 := (y 1).isLt; omega⟩ (y 2)) :
    k0_pay7 (F := Ideal) (KLoop.scr x0 x1 x2 k0_t1_loop.trips).2.2 (KLoop.scr x0 x1 x2 k0_t1_loop.trips).2.1 y
      = G a0 a1 a2 i := by
  obtain ⟨b, r, d, rfl⟩ : ∃ (b : Fin 4) (r : Fin 512) (d : Fin 64), y = ix3 b r d := ⟨y 0, y 1, y 2, eq_ix3 y⟩
  subst hi hx1 hx2
  rw [KInv.block_value x0 x1 x2 b r (fun e => toArr a0 b ⟨512 * T + r.val, by omega⟩ e) (toArr x1) (toArr x2)
    (fun e => by rw [hx0]; exact h0.at _ _ _) (fun j e => h1.at _ _ _) (fun j d => h2.at _ _ _) d]
  show _ = G a0 x1 x2 (ix3 b ⟨512 * T + r.val, _⟩ d)
  rw [G_apply]
  unfold attn
  simp only [score_scaled_query]

/-- What point t writes back is block t of the attention of the three arrays. -/
theorem flushed_eq (c : Dev nD) (t : Fin cfg0.N)
    (h0 : IsReal (V m c main_arg0)) (h1 : IsReal (V m c main_arg1)) (h2 : IsReal (V m c main_arg2)) :
    (dats m 0 c).flushed 3 t
      = ((cfg0.win 3).blk t).view.read (Elt Ideal) (G (V m c main_arg0) (V m c main_arg1) (V m c main_arg2)) := by
  rw [Value.flushed3]
  unfold outsAt0
  rw [KLoop.out_eq]
  obtain ⟨-, -, -, -, -, -, -, -, -, e0, e1, e2⟩ := idx_facts t
  funext j
  rw [View.read_apply]
  refine block_G (iblk m c 0 t) (iblk m c 1 t) (iblk m c 2 t) _ _ _ t.val (t_lt t) h0 h1 h2
    (fun b r e => qblock_apply m c t b r e _) (kblock_eq m c t) (vblock_eq m c t) j _ ?_
  funext a
  apply Fin.ext
  match a with
  | ⟨0, _⟩ => show win0_3.index t (0 : Fin 3) * 4 + 1 * (j 0).val = (j 0).val; rw [e0]; omega
  | ⟨1, _⟩ => show win0_3.index t (1 : Fin 3) * 512 + 1 * (j 1).val = 512 * t.val + (j 1).val; rw [e1]; omega
  | ⟨2, _⟩ => show win0_3.index t (2 : Fin 3) * 64 + 1 * (j 2).val = (j 2).val; rw [e2]; omega

/-- An index of the output array is in point t's block iff each coordinate is in the block's range on its axis. -/
theorem mem_blk (t : Fin cfg0.N) (i : S4x4096x64.Idx) :
    i ∈ ((cfg0.win 3).blk t).view.set ↔ ∀ a : Fin 3, win0_3.index t a * S4x512x64.size a ≤ (i a).val
      ∧ (i a).val < win0_3.index t a * S4x512x64.size a + S4x512x64.size a := by
  show i ∈ ((View.whole main_v0).slice (win0_3.rect t)).set ↔ _
  rw [View.set_slice_whole, Rect.mem_set_unit]
  exact Iff.rfl

/-- Every index of the output array lies in the block of the point its row falls in: row ρ is in block ρ / 512. -/
theorem cover (i : S4x4096x64.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 64 := (i 2).isLt
  have hN : (i 1).val / 512 < grid0.N := by rw [N_0]; omega
  refine ⟨⟨(i 1).val / 512, hN⟩, flush0_3 _, ?_⟩
  obtain ⟨-, -, -, -, -, -, -, -, -, e0, e1, e2⟩ := idx_facts ⟨(i 1).val / 512, hN⟩
  rw [mem_blk]
  intro a
  match a with
  | ⟨0, _⟩ => show win0_3.index _ (0 : Fin 3) * 4 ≤ (i 0).val ∧ (i 0).val < win0_3.index _ (0 : Fin 3) * 4 + 4; rw [e0]; omega
  | ⟨1, _⟩ => show win0_3.index _ (1 : Fin 3) * 512 ≤ (i 1).val ∧ (i 1).val < win0_3.index _ (1 : Fin 3) * 512 + 512; rw [e1]; show (i 1).val / 512 * 512 ≤ (i 1).val ∧ (i 1).val < (i 1).val / 512 * 512 + 512; omega
  | ⟨2, _⟩ => show win0_3.index _ (2 : Fin 3) * 64 ≤ (i 2).val ∧ (i 2).val < win0_3.index _ (2 : Fin 3) * 64 + 64; rw [e2]; omega

/-- The output array after the run is the attention of the three argument arrays. -/
theorem final (c : Dev nD) (h0 : IsReal (m ((c : Thread nD τ).loc main_arg0))) (h1 : IsReal (m ((c : Thread nD τ).loc main_arg1)))
    (h2 : IsReal (m ((c : Thread nD τ).loc main_arg2))) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 (G (V m c main_arg0) (V m c main_arg1) (V m c main_arg2))
    (fun t _ => flushed_eq m c t h0 h1 h2) cover

/-- The kernel's run: the output array ends at the attention of the argument arrays, the arguments unchanged. -/
theorem run (hfin : ∀ c : Dev nD, IsReal (m ((c : Thread nD τ).loc main_arg0)) ∧ IsReal (m ((c : Thread nD τ).loc main_arg1))
      ∧ IsReal (m ((c : Thread nD τ).loc main_arg2))) :
    θ_run defs (onTc (τ := τ) (main (F := Ideal))) ⟨m, fun _ => 0, ρ⟩ fun r => ∀ c : Dev nD,
      r.2.mem ((c : Thread nD τ).loc main_v0)
          = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hfin c).1 (hfin c).2.1 (hfin c).2.2), (h c).2⟩)
    (Cert.KernelIdeal.Value.run_blocks m ρ)

end Cert.KernelIdeal.KBlock

end
-- ==== Proof.RefSide.lean ====
/-
  The reference program's result is the attention of its three arguments.

  The reference computes, for query row q of batch b: the scores s[j] = (∑ₑ Q[b,q,e]·K[b,j,e])·(1/√64) against
  every key j; the row's shift M = max(-∞, maxⱼ s[j]); the weights exp(s[j] - M) / ∑ₖ exp(s[k] - M); and the
  output ∑ⱼ weight[j]·V[b,j,d].  When every input entry is a real number, every one of these stages is, at an
  index, a real expression read as an extended real: the scores are reals, so M — the maximum of 4096 > 0
  reals — is one of them, hence a real; the shifted exponentials are positive reals, so their sum is a nonzero
  real and the quotient is the real quotient.  Subtracting M from every score of a row multiplies numerator and
  denominator by exp(-M), so the weighted mean is the exp-weighted mean of the unshifted scores: the attention
  of the specification, whatever M is.
-/
import proofs.«174683_j67396626809355_2_alg».proof.Proof.Gen.ReferenceIdeal.Read
import proofs.«174683_j67396626809355_2_alg».proof.Proof.SpecG
import proofs.«174683_j67396626809355_2_alg».proof.Proof.Consts
import Idealize.ShloMosaic.Lib.IdealHost
import Idealize.ShloMosaic.PureOps.Ideal.Laws

noncomputable section

open Idealize.ShloMosaic Idealize.ShloMosaic.ValueIdx
open scoped BigOperators

namespace Cert.ReferenceIdeal.RefSide

open Cert.ReferenceIdeal Cert.ReferenceIdeal.Gen Cert.ReferenceIdeal.Read Attn

/-- A finite sum of real numbers, each read as an extended real, is the real sum read as an extended real. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The scale: 1/√64 as a real. -/
theorem scale_eq (i : S_.Idx) : val_main_v1 (F := Ideal) i = ((1 / Real.sqrt 64 : ℝ) : EReal) := by
  have h64 : Real.sqrt 64 ≠ 0 := by
    rw [show (64 : ℝ) = 8 ^ 2 by norm_num, Real.sqrt_sq (by norm_num)]; norm_num
  rw [val_main_v1_apply, val_main_cst_0_apply, val_main_v0_apply, val_main_cst_apply]
  simp only [Ideal.ofBits_def, Ideal.hostUnary_sqrt_def, Ideal.hostDivf_def, Cert.Consts.lit_64, Ideal.ofBits_one_f32,
    Ideal.sqrt_coe]
  rw [if_neg (by norm_num), Ideal.div_coe h64, one_mul]

variable (x0 x1 x2 : (⟨S4x4096x64, .f32⟩ : BufTy).Contents (Elt Ideal))

theorem lidx_v2 (b : Fin 4) (q j : Fin 4096) (e : Fin 64) :
    lidx_main_v2 (ix3 b q j) e = ix3 b q e :=
  funext fun a => Fin.ext (by match a with | ⟨0, _⟩ => rfl | ⟨1, _⟩ => rfl | ⟨2, _⟩ => rfl)

theorem ridx_v2 (b : Fin 4) (q j : Fin 4096) (e : Fin 64) :
    ridx_main_v2 (ix3 b q j) e = ix3 b j e :=
  funext fun a => Fin.ext (by match a with | ⟨0, _⟩ => rfl | ⟨1, _⟩ => rfl | ⟨2, _⟩ => rfl)

/-- The scaled score at (b, q, j) is the real score. -/
theorem score_at (h0 : IsReal x0) (h1 : IsReal x1) (b : Fin 4) (q j : Fin 4096) :
    val_main_v4 (F := Ideal) x0 x1 (ix3 b q j) = ((score (toArr x0) (toArr x1) b q j : ℝ) : EReal) := by
  rw [val_main_v4_apply, val_main_v2_apply, val_main_v3_apply, scale_eq, Ideal.mulf_def]
  simp only [lidx_v2, ridx_v2, h0.at, h1.at, ← EReal.coe_mul]
  rw [coe_sum, ← EReal.coe_mul, score_scaled_dot]

/-- The maximum from -∞ over a nonempty finite family of real numbers is (one of them, hence) a real number. -/
theorem fold_max_real {n : ℕ} (hn : 0 < n) (g : Fin n → EReal) (hg : ∀ k, ∃ r : ℝ, g k = (r : EReal)) :
    ∃ M : ℝ, (Finset.univ : Finset (Fin n)).fold max ⊥ g = (M : EReal) := by
  have hne : (Finset.univ : Finset (Fin n)).Nonempty := ⟨⟨0, hn⟩, Finset.mem_univ _⟩
  obtain ⟨k, _, hk⟩ := Finset.exists_mem_eq_sup Finset.univ hne g
  obtain ⟨r, hr⟩ := hg k
  exact ⟨r, by rw [← hr, ← hk]; rfl⟩

/-- Every scaled score is a real number. -/
theorem score_real (h0 : IsReal x0) (h1 : IsReal x1) (i : S4x4096x4096.Idx) :
    ∃ r : ℝ, val_main_v4 (F := Ideal) x0 x1 i = (r : EReal) := by
  obtain ⟨b, q, j, rfl⟩ : ∃ (b : Fin 4) (q j : Fin 4096), i = ix3 b q j := ⟨i 0, i 1, i 2, eq_ix3 i⟩
  exact ⟨_, score_at x0 x1 h0 h1 b q j⟩

/-- The row's shift (the maximum of its 4096 scores, taken from -∞) is a real number. -/
theorem rowmax_real (h0 : IsReal x0) (h1 : IsReal x1) (b : Fin 4) (q : Fin 4096) :
    ∃ M : ℝ, val_main_v7 (F := Ideal) x0 x1 (ix2 b q) = (M : EReal) := by
  have hred : S4x4096x4096.Reduces [2] S4x4096 := by decide
  rw [val_main_v7_apply, val_main_v6_apply, val_main_cst_2_apply, Ideal.ofBits_def, Cert.Consts.lit_neg_inf,
    Ideal.maximumf_def, max_eq_right bot_le]
  unfold val_main_v5
  rw [Host.reduce_eq_fold_single FloatOps.maximumf _ _ _ hred]
  rw [val_main_cst_1_apply, Ideal.ofBits_def, Cert.Consts.lit_neg_inf]
  exact fold_max_real (n := 4096) (by norm_num) _ (fun k => score_real x0 x1 h0 h1 _)

theorem idx_v9 (b : Fin 4) (q j : Fin 4096) : idx_main_v8 (idx_main_v9 (ix3 b q j)) = ix2 b q :=
  funext fun a => Fin.ext (by match a with | ⟨0, _⟩ => rfl | ⟨1, _⟩ => rfl)

theorem idx_v14 (b : Fin 4) (q j : Fin 4096) : idx_main_v13 (idx_main_v14 (ix3 b q j)) = ix2 b q :=
  funext fun a => Fin.ext (by match a with | ⟨0, _⟩ => rfl | ⟨1, _⟩ => rfl)

theorem idx_v12 (b : Fin 4) (q k : Fin 4096) : idx_main_v12 (ix2 b q) k = ix3 b q k :=
  funext fun a => Fin.ext (by match a with | ⟨0, _⟩ => rfl | ⟨1, _⟩ => rfl | ⟨2, _⟩ => rfl)

theorem lidx_v16 (b : Fin 4) (q : Fin 4096) (d : Fin 64) (k : Fin 4096) :
    lidx_main_v16 (ix3 b q d) k = ix3 b q k :=
  funext fun a => Fin.ext (by match a with | ⟨0, _⟩ => rfl | ⟨1, _⟩ => rfl | ⟨2, _⟩ => rfl)

theorem ridx_v16 (b : Fin 4) (q : Fin 4096) (d : Fin 64) (k : Fin 4096) :
    ridx_main_v16 (ix3 b q d) k = ix3 b k d :=
  funext fun a => Fin.ext (by match a with | ⟨0, _⟩ => rfl | ⟨1, _⟩ => rfl | ⟨2, _⟩ => rfl)

/-- The shifted exponential at (b, q, j), the row's shift being the real M. -/
theorem shifted_at (h0 : IsReal x0) (h1 : IsReal x1) (b : Fin 4) (q j : Fin 4096) (M : ℝ)
    (hM : val_main_v7 (F := Ideal) x0 x1 (ix2 b q) = (M : EReal)) :
    val_main_v11 (F := Ideal) x0 x1 (ix3 b q j)
      = ((Real.exp (score (toArr x0) (toArr x1) b q j - M) : ℝ) : EReal) := by
  rw [val_main_v11_apply, val_main_v10_apply, val_main_v9_apply, val_main_v8_apply, idx_v9, hM,
    score_at x0 x1 h0 h1, Ideal.subf_def, Ideal.hostUnary_exp_def, ← EReal.coe_sub, Ideal.exp_coe]

/-- The row's denominator: the sum of the shifted exponentials. -/
theorem denom_at (h0 : IsReal x0) (h1 : IsReal x1) (b : Fin 4) (q : Fin 4096) (M : ℝ)
    (hM : val_main_v7 (F := Ideal) x0 x1 (ix2 b q) = (M : EReal)) :
    val_main_v12 (F := Ideal) x0 x1 (ix2 b q)
      = ((∑ k : Fin 4096, Real.exp (score (toArr x0) (toArr x1) b q k - M) : ℝ) : EReal) := by
  rw [val_main_v12_apply, val_main_cst_3_apply, Ideal.ofBits_def, Ideal.ofBits_zero_f32, zero_add]
  simp only [idx_v12, shifted_at x0 x1 h0 h1 b q _ M hM]
  exact coe_sum _ _

/-- The normalized weight at (b, q, j). -/
theorem weight_at (h0 : IsReal x0) (h1 : IsReal x1) (b : Fin 4) (q j : Fin 4096) (M : ℝ)
    (hM : val_main_v7 (F := Ideal) x0 x1 (ix2 b q) = (M : EReal)) :
    val_main_v15 (F := Ideal) x0 x1 (ix3 b q j)
      = ((Real.exp (score (toArr x0) (toArr x1) b q j - M)
          / ∑ k : Fin 4096, Real.exp (score (toArr x0) (toArr x1) b q k - M) : ℝ) : EReal) := by
  have hpos : (0 : ℝ) < ∑ k : Fin 4096, Real.exp (score (toArr x0) (toArr x1) b q k - M) :=
    Finset.sum_pos (fun k _ => Real.exp_pos _) ⟨⟨0, by norm_num⟩, Finset.mem_univ _⟩
  rw [val_main_v15_apply, val_main_v14_apply, val_main_v13_apply, idx_v14, denom_at x0 x1 h0 h1 b q M hM,
    shifted_at x0 x1 h0 h1 b q j M hM, Ideal.hostDivf_def, Ideal.div_coe hpos.ne', ← EReal.coe_mul, mul_one_div]

/-- The reference's result is the attention of its three arguments, index by index. -/
theorem ref_is_G (h0 : IsReal x0) (h1 : IsReal x1) (h2 : IsReal x2) :
    val_main_v16 (F := Ideal) x0 x1 x2 = G x0 x1 x2 := by
  funext i
  obtain ⟨b, q, d, rfl⟩ : ∃ (b : Fin 4) (q : Fin 4096) (d : Fin 64), i = ix3 b q d := ⟨i 0, i 1, i 2, eq_ix3 i⟩
  obtain ⟨M, hM⟩ := rowmax_real x0 x1 h0 h1 b q
  rw [val_main_v16_apply, G_apply]
  simp only [lidx_v16, ridx_v16, weight_at x0 x1 h0 h1 b q _ M hM, h2.at, ← EReal.coe_mul]
  rw [coe_sum]
  exact congrArg _ (softmax_shift (fun j => score (toArr x0) (toArr x1) b q j) (fun j => toArr x2 b j d) M)

end Cert.ReferenceIdeal.RefSide

end
-- ==== Proof.Finite.lean ====
/-
  From the precondition to "every entry is a real number".

  The precondition is, for each of the three arrays, the conjunction over all entries of |x| < +∞,
  and the conjunction of the three.  An extended real whose absolute value max(x, -x) is below +∞ is
  neither infinity, hence a real number.
-/
import proofs.«174683_j67396626809355_2_alg».proof.Pre_finite_inputs
import proofs.«174683_j67396626809355_2_alg».proof.Proof.SpecG
import proofs.«174683_j67396626809355_2_alg».proof.Proof.Consts
import Idealize.ShloMosaic.Lib.ReduceAll
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.Finite

open Cert.Pre_finite_inputs

/-- The rank-0 shape has one index. -/
instance : Subsingleton S_.Idx := ⟨fun a b => funext fun d => d.elim0⟩

/-- An extended real whose absolute value is below +∞ is a real number. -/
theorem real_of_abs_lt_top (x : EReal) (h : Ideal.cmp .olt (max x (-x)) ⊤ = 1#1) :
    x = ((x.toReal : ℝ) : EReal) := by
  induction x using EReal.rec with
  | bot => exact absurd h (by simp [Ideal.cmp])
  | coe r => rfl
  | top => exact absurd h (by simp [Ideal.cmp])

variable [Cert.Pre_finite_inputs.Facts]
open Cert.Pre_finite_inputs.Facts

/-- One conjunct of the precondition: if |x| < +∞ holds at every entry of x, every entry of x is real. -/
theorem isReal_of_all (x : FVec Ideal S4x4096x64 .f32) (init : IVec S_ 1)
    (e : Host.reduce IntOp.andi
          (cmpf .olt (Host.absf x) (broadcastInDim S4x4096x64 ![] bcast_S_S4x4096x64 (constant (F := Ideal) S_ .f32 0x7F800000#32)))
          init reducesTo_S4x4096x64_S_d0_1_2 h_S_ ix0 = 1#1) :
    Attn.IsReal x := by
  intro i
  have hi := Host.reduce_andi_all _ _ _ _ _ e i
  rw [cmpf_apply, broadcastInDim_apply _ bcast_S_S4x4096x64 _ i ix0 (fun a => a.elim0)] at hi
  have hi' : Ideal.cmp .olt (max (x i) (-(x i))) ⊤ = 1#1 := by
    rw [← Cert.Consts.lit_pos_inf]; exact hi
  exact real_of_abs_lt_top _ hi'

/-- Under the precondition every entry of the three arrays is a real number. -/
theorem isReal_of_pre (x0 x1 x2 : (⟨S4x4096x64, .f32⟩ : BufTy).Contents (Elt Ideal))
    (h : Cert.Pre_finite_inputs.fn (F := Ideal) x0 x1 x2 = fun _ => 1#1) :
    Attn.IsReal x0 ∧ Attn.IsReal x1 ∧ Attn.IsReal x2 := by
  have h' := congrFun h ix0
  dsimp only [Cert.Pre_finite_inputs.fn] at h'
  obtain ⟨h01, h2⟩ := IntOp.andi_eq_one.1 h'
  obtain ⟨h0, h1⟩ := IntOp.andi_eq_one.1 h01
  exact ⟨isReal_of_all x0 _ h0, isReal_of_all x1 _ h1, isReal_of_all x2 _ h2⟩

end Cert.Finite

end
-- ==== Proof.Claims.lean ====
/-
  The five claims of the certificate, assembled.

  The three frames are the generated frame theorems (the reference's from its generated run).  The
  idealization rewrote no operation, so there is nothing to preserve.  For the algebraic claim both
  programs end, on every device, with the same function of the three argument arrays: the attention
  `Attn.G`.  The precondition makes every entry of the three arrays a real number; on such arrays
  the kernel's output block is `Attn.G` of them (the streamed form), and the reference's result term
  is `Attn.G` of them (the softmax form); the two memories agree on the arguments.
-/
import proofs.«174683_j67396626809355_2_alg».proof.Defs
import proofs.«174683_j67396626809355_2_alg».proof.Proof.Gen.Kernel.Frame
import proofs.«174683_j67396626809355_2_alg».proof.Proof.Gen.KernelIdeal.Frame
import proofs.«174683_j67396626809355_2_alg».proof.Proof.Gen.ReferenceIdeal.Run
import proofs.«174683_j67396626809355_2_alg».proof.Proof.Gen.ReferenceIdeal.Read
import proofs.«174683_j67396626809355_2_alg».proof.Proof.Gen.Pre_finite_inputs
import proofs.«174683_j67396626809355_2_alg».proof.Proof.SpecG
import proofs.«174683_j67396626809355_2_alg».proof.Proof.KernelBlock
import proofs.«174683_j67396626809355_2_alg».proof.Proof.RefSide
import proofs.«174683_j67396626809355_2_alg».proof.Proof.Finite

noncomputable section

open Idealize.ShloMosaic Idealize.ShloMosaic.TcCoe Idealize.SL.Sem

namespace Cert.Proof.Claims

/-- The kernel as printed runs and leaves its arguments unchanged. -/
theorem frame_k [hKernel : Cert.Kernel.Facts] [hPre_finite_inputs : Cert.Pre_finite_inputs.Facts] : Cert.frame_Kernel :=
  fun m ρ _ => Cert.Kernel.Gen.frame m ρ

/-- The kernel over the extended reals runs and leaves its arguments unchanged. -/
theorem frame_ki [hKernelIdeal : Cert.KernelIdeal.Facts] [hPre_finite_inputs : Cert.Pre_finite_inputs.Facts] : Cert.frame_KernelIdeal :=
  fun m ρ _ => Cert.KernelIdeal.Gen.frame m ρ

/-- The reference over the extended reals runs and leaves its arguments unchanged. -/
theorem frame_ri [hReferenceIdeal : Cert.ReferenceIdeal.Facts] [hPre_finite_inputs : Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories agreeing on real-valued arguments, the kernel and the
    reference both end with the attention of the arguments. -/
theorem algebraic [hKernelIdeal : Cert.KernelIdeal.Facts] [hReferenceIdeal : Cert.ReferenceIdeal.Facts] [hPre_finite_inputs : Cert.Pre_finite_inputs.Facts] :
    Cert.algebraic_KernelIdeal_ReferenceIdeal := by
  intro m ρ m' ρ' hpre hagree
  have hfin : ∀ c : Dev Cert.KernelIdeal.nD,
      Attn.IsReal (m ((c : Thread Cert.KernelIdeal.nD Cert.KernelIdeal.τ).loc Cert.KernelIdeal.main_arg0))
      ∧ Attn.IsReal (m ((c : Thread Cert.KernelIdeal.nD Cert.KernelIdeal.τ).loc Cert.KernelIdeal.main_arg1))
      ∧ Attn.IsReal (m ((c : Thread Cert.KernelIdeal.nD Cert.KernelIdeal.τ).loc Cert.KernelIdeal.main_arg2)) :=
    fun c => Cert.Finite.isReal_of_pre _ _ _ (hpre c)
  refine ⟨fun c => Attn.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.KBlock.run m ρ hfin, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, (hagree c).1, (hagree c).2.1, (hagree c).2.2]
  exact Cert.ReferenceIdeal.RefSide.ref_is_G _ _ _ (hfin c).1 (hfin c).2.1 (hfin c).2.2

end Cert.Proof.Claims

end
-- ==== Proof.lean ====
/-
  Streamed (flash) attention against softmax attention, over the extended reals.

  Both programs take query, keys and values of shape [4, 4096, 64] and return, at index (b, q, d),
  the exp-weighted mean of column d of the values,
      (∑ⱼ exp(s j) · V[b,j,d]) / ∑ⱼ exp(s j),      s j = (∑ₑ Q[b,q,e] · K[b,j,e]) / 8,
  once every input entry is a finite number (the precondition).

  * The reference forms the scores (q·k)·(1/√64), subtracts the row's largest score M, exponentiates,
    divides by the row sum and multiplies into V.  √64 = 8, and the factor exp(-M) cancels between
    the weights' numerator and denominator.
  * The kernel, for each block of 512 query rows, scales the query by 1/8 and visits the 4096 keys
    in 8 tiles of 512, keeping three running quantities per row: a shift μ, the denominator
    exp(-μ)·∑ exp(s j) and the numerator exp(-μ)·∑ exp(s j)·V[b,j,d] over the keys seen so far; a
    tile moves the shift to the larger of μ and the tile's largest score, rescales both running sums
    by exp(μ - μ') and adds the tile's terms at the new shift.  After the eighth tile the block is
    numerator over denominator, and exp(-μ) cancels.  The shift starts at a large finite negative
    number; since any real shift gives the same quotient, its value never matters.
  Finiteness is what makes the exponential laws exact here: products and differences of finite
  numbers are finite, so no infinity meets a zero or another infinity.

  The modules: Spec (the real-valued attention and the exponential laws), SpecG (the same as a
  function of arrays of extended reals), Consts (the five float literals read), KernelOps (one
  trip's arithmetic at an element), StepReal and KernelInv (a trip, then n trips, at a row, in real
  numbers), KernelLoop (the body's output block as a recursion over the trips), KernelBlock (from
  the blocks to the result array), RefSide (the reference's result is the specification), Finite
  (the precondition gives finite entries), Claims (the five conjuncts).
-/
import proofs.«174683_j67396626809355_2_alg».proof.Defs
import proofs.«174683_j67396626809355_2_alg».proof.Proof.Gen.Kernel
import proofs.«174683_j67396626809355_2_alg».proof.Proof.Gen.Kernel.Skeleton
import proofs.«174683_j67396626809355_2_alg».proof.Proof.Gen.Kernel.Loops
import proofs.«174683_j67396626809355_2_alg».proof.Proof.Gen.Kernel.Launch
import proofs.«174683_j67396626809355_2_alg».proof.Proof.Gen.Kernel.Points
import proofs.«174683_j67396626809355_2_alg».proof.Proof.Gen.Kernel.Frame
import proofs.«174683_j67396626809355_2_alg».proof.Proof.Gen.KernelIdeal
import proofs.«174683_j67396626809355_2_alg».proof.Proof.Gen.KernelIdeal.Skeleton
import proofs.«174683_j67396626809355_2_alg».proof.Proof.Gen.KernelIdeal.Loops
import proofs.«174683_j67396626809355_2_alg».proof.Proof.Gen.KernelIdeal.Launch
import proofs.«174683_j67396626809355_2_alg».proof.Proof.Gen.KernelIdeal.Points
import proofs.«174683_j67396626809355_2_alg».proof.Proof.Gen.KernelIdeal.Frame
import proofs.«174683_j67396626809355_2_alg».proof.Proof.Gen.ReferenceIdeal
import proofs.«174683_j67396626809355_2_alg».proof.Proof.Gen.Pre_finite_inputs
import proofs.«174683_j67396626809355_2_alg».proof.Proof.Gen.KernelIdeal.Value
import proofs.«174683_j67396626809355_2_alg».proof.Proof.Gen.ReferenceIdeal.Run
import proofs.«174683_j67396626809355_2_alg».proof.Proof.Gen.ReferenceIdeal.Read
import proofs.«174683_j67396626809355_2_alg».proof.Proof.Claims
import Idealize.ShloMosaic.Adequacy
import Idealize.ShloMosaic.Init

noncomputable section

namespace Cert.Proof

open Idealize.ShloMosaic Idealize.SL.Sem Cert.Kernel

/-- The certificate: the programs' stated side conditions, the three frames, the (empty) idealization
    ledger, and the equality of the two idealized programs' results under finite inputs. -/
theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
